-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S512 : Shape := ⟨1, ![512]⟩
abbrev S256x8x512 : Shape := ⟨3, ![256, 8, 512]⟩
abbrev S8x512 : Shape := ⟨2, ![8, 512]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S512 : S_.BroadcastsInDim S512 (![] : Fin 0 → Fin S512.rank)
  reducesTo_S512_S_d0 : S512.ReducesTo [0] S_
  bcast_S_S256x8x512 : S_.BroadcastsInDim S256x8x512 (![] : Fin 0 → Fin S256x8x512.rank)
  reducesTo_S256x8x512_S_d0_1_2 : S256x8x512.ReducesTo [0, 1, 2] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_arg4 : FVec F S256x8x512 .f32) (main_arg5 : FVec F S8x512 .f32) (main_arg6 : FVec F S8x512 .f32) (main_v13 : IVec S_ 1) (main_v16 : IVec S256x8x512 1) : IVec S_ 1 :=
  let main_c_5 : IVec S_ 1 := constantI S_ 1 1#1
  let main_v17 : IVec S_ 1 := (fun x v => Host.reduce IntOp.andi x v reducesTo_S256x8x512_S_d0_1_2 h_S_) main_v16 main_c_5
  let main_v18 : IVec S_ 1 := andi main_v13 main_v17
  let main_v19 : FVec F S256x8x512 .f32 := Host.absf main_arg4
  let main_cst_6 : FVec F S_ .f32 := constant S_ .f32 0x7F800000#32
  let main_v20 : FVec F S256x8x512 .f32 := broadcastInDim S256x8x512 ![] bcast_S_S256x8x512 main_cst_6
  let main_v21 : IVec S256x8x512 1 := cmpf .olt main_v19 main_v20
  let main_c_7 : IVec S_ 1 := constantI S_ 1 1#1
  let main_v22 : IVec S_ 1 := (fun x v => Host.reduce IntOp.andi x v reducesTo_S256x8x512_S_d0_1_2 h_S_) main_v21 main_c_7
  let main_v23 : IVec S_ 1 := andi main_v18 main_v22
  let main_v24 : FVec F S8x512 .f32 := Host.absf main_arg5
  let main_cst_8 : FVec F S_ .f32 := constant S_ .f32 0x7F800000#32
  let main_v25 : FVec F S8x512 .f32 := broadcastInDim S8x512 ![] bcast_S_S8x512 main_cst_8
  let main_v26 : IVec S8x512 1 := cmpf .olt main_v24 main_v25
  let main_c_9 : IVec S_ 1 := constantI S_ 1 1#1
  let main_v27 : IVec S_ 1 := (fun x v => Host.reduce IntOp.andi x v reducesTo_S8x512_S_d0_1 h_S_) main_v26 main_c_9
  let main_v28 : IVec S_ 1 := andi main_v23 main_v27
  let main_v29 : FVec F S8x512 .f32 := Host.absf main_arg6
  let main_cst_10 : FVec F S_ .f32 := constant S_ .f32 0x7F800000#32
  let main_v30 : FVec F S8x512 .f32 := broadcastInDim S8x512 ![] bcast_S_S8x512 main_cst_10
  let main_v31 : IVec S8x512 1 := cmpf .olt main_v29 main_v30
  let main_c_11 : IVec S_ 1 := constantI S_ 1 1#1
  let main_v32 : IVec S_ 1 := (fun x v => Host.reduce IntOp.andi x v reducesTo_S8x512_S_d0_1 h_S_) main_v31 main_c_11
  let main_v33 : IVec S_ 1 := andi main_v28 main_v32
  main_v33

def fn {F : FTy → Type} [FloatOps F] (main_arg0 : FVec F S64x512 .f32) (main_arg1 : FVec F S512 .f32) (main_arg2 : FVec F S512 .f32) (main_arg3 : FVec F S256x8x512 .f32) (main_arg4 : FVec F S256x8x512 .f32) (main_arg5 : FVec F S8x512 .f32) (main_arg6 : FVec F S8x512 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S256x8x512 .f32 := Host.absf main_arg3
  let main_cst_4 : FVec F S_ .f32 := constant S_ .f32 0x7F800000#32
  let main_v15 : FVec F S256x8x512 .f32 := broadcastInDim S256x8x512 ![] bcast_S_S256x8x512 main_cst_4
  let main_v16 : IVec S256x8x512 1 := cmpf .olt main_v14 main_v15
  fn_part1 (F := F) main_arg4 main_arg5 main_arg6 main_v13 main_v16
-- ==== Kernel.lean ====
abbrev S64x512 : Shape := ⟨2, ![64, 512]⟩
abbrev S512 : Shape := ⟨1, ![512]⟩
abbrev S256x8x512 : Shape := ⟨3, ![256, 8, 512]⟩
abbrev S8x512 : Shape := ⟨2, ![8, 512]⟩
abbrev S1x512 : Shape := ⟨2, ![1, 512]⟩
abbrev S64x256 : Shape := ⟨2, ![64, 256]⟩
abbrev S128x8x512 : Shape := ⟨3, ![128, 8, 512]⟩
abbrev S8x128 : Shape := ⟨2, ![8, 128]⟩
abbrev S8 : Shape := ⟨1, ![8]⟩
abbrev S8x1 : Shape := ⟨2, ![8, 1]⟩
abbrev S8x128x8 : Shape := ⟨3, ![8, 128, 8]⟩
abbrev S128x8x128 : Shape := ⟨3, ![128, 8, 128]⟩
abbrev S1x128x8x128 : Shape := ⟨4, ![1, 128, 8, 128]⟩
abbrev S8x1x1x128 : Shape := ⟨4, ![8, 1, 1, 128]⟩
abbrev S8x128x8x128 : Shape := ⟨4, ![8, 128, 8, 128]⟩
abbrev S1x1x8x128 : Shape := ⟨4, ![1, 1, 8, 128]⟩
abbrev S8x128x1 : Shape := ⟨3, ![8, 128, 1]⟩
abbrev S1x1x8 : Shape := ⟨3, ![1, 1, 8]⟩
abbrev S_ : Shape := ⟨0, ![]⟩
abbrev S64 : Shape := ⟨1, ![64]⟩
abbrev S64x1 : Shape := ⟨2, ![64, 1]⟩

abbrev nBuf : Space → Nat
  | .hbm => 24
  | .vmem => 12
  | .smem => 0
  | _ => 0

abbrev bufTy : (tb : Table) → Fin (tcTables nBuf tb) → BufTy
  | .hbm, ⟨0, _⟩ => ⟨S64x512, .f32⟩
  | .hbm, ⟨1, _⟩ => ⟨S512, .f32⟩
  | .hbm, ⟨2, _⟩ => ⟨S512, .f32⟩
  | .hbm, ⟨3, _⟩ => ⟨S256x8x512, .f32⟩
  | .hbm, ⟨4, _⟩ => ⟨S256x8x512, .f32⟩
  | .hbm, ⟨5, _⟩ => ⟨S8x512, .f32⟩
  | .hbm, ⟨6, _⟩ => ⟨S8x512, .f32⟩
  | .hbm, ⟨7, _⟩ => ⟨S1x512, .f32⟩
  | .hbm, ⟨8, _⟩ => ⟨S1x512, .f32⟩
  | .hbm, ⟨9, _⟩ => ⟨S64x256, .f32⟩
  | .hbm, ⟨10, _⟩ => ⟨S_, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64x1, .f32⟩
  | .hbm, ⟨16, _⟩ => ⟨S64x256, .f32⟩
  | .hbm, ⟨17, _⟩ => ⟨S64x256, .f32⟩
  | .hbm, ⟨18, _⟩ => ⟨S64x256, .f32⟩
  | .hbm, ⟨19, _⟩ => ⟨S_, .f32⟩
  | .hbm, ⟨20, _⟩ => ⟨S64, .f32⟩
  | .hbm, ⟨21, _⟩ => ⟨S64x1, .f32⟩
  | .hbm, ⟨22, _⟩ => ⟨S64x256, .f32⟩
  | .hbm, ⟨23, _⟩ => ⟨S64x256, .f32⟩
  | .local _ .vmem, ⟨0, _⟩ => ⟨S8x512, .f32⟩
  | .local _ .vmem, ⟨1, _⟩ => ⟨S8x512, .f32⟩
  | .local _ .vmem, ⟨2, _⟩ => ⟨S1x512, .f32⟩
  | .local _ .vmem, ⟨3, _⟩ => ⟨S1x512, .f32⟩
  | .local _ .vmem, ⟨4, _⟩ => ⟨S128x8x512, .f32⟩
  | .local _ .vmem, ⟨5, _⟩ => ⟨S128x8x512, .f32⟩
  | .local _ .vmem, ⟨6, _⟩ => ⟨S128x8x512, .f32⟩
  | .local _ .vmem, ⟨7, _⟩ => ⟨S128x8x512, .f32⟩
  | .local _ .vmem, ⟨8, _⟩ => ⟨S8x512, .f32⟩
  | .local _ .vmem, ⟨9, _⟩ => ⟨S8x512, .f32⟩
  | .local _ .vmem, ⟨10, _⟩ => ⟨S8x128, .f32⟩
  | .local _ .vmem, ⟨11, _⟩ => ⟨S8x128, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S512_S1x512 : S512.ShapeCasts S1x512
  inb_S8x512_S8x512_0_0 : ∀ a, (![0, 0] : Fin 2 → Nat) a + S8x512.size a ≤ S8x512.size a
  h_S8x512 : 0 < S8x512.numel
  reduces_S8x512_S8 : S8x512.Reduces [1] S8
  shapeCasts_S8_S8x1 : S8.ShapeCasts S8x1
  broadcasts_S8x1_S8x512 : S8x1.Broadcasts S8x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S8x512 : S1x512.Broadcasts S8x512
  inb_S128x8x512_S128x8x128_0_0_0 : ∀ a, (![0, 0, 0] : Fin 3 → Nat) a + S128x8x128.size a ≤ S128x8x512.size a
  h_S128x8x128 : 0 < S128x8x128.numel
  slices_S8x512_o0_0_S8x128 : S8x512.Slices ![0, 0] S8x128
  shapeCasts_S128x8x128_S1x128x8x128 : S128x8x128.ShapeCasts S1x128x8x128
  shapeCasts_S8x128_S8x1x1x128 : S8x128.ShapeCasts S8x1x1x128
  broadcasts_S1x128x8x128_S8x128x8x128 : S1x128x8x128.Broadcasts S8x128x8x128
  broadcasts_S8x1x1x128_S8x128x8x128 : S8x1x1x128.Broadcasts S8x128x8x128
  reduces_S8x128x8x128_S8x128x8 : S8x128x8x128.Reduces [3] S8x128x8
  reduces_S8x128x8_S8x128 : S8x128x8.Reduces [2] S8x128
  shapeCasts_S8x128_S1x1x8x128 : S8x128.ShapeCasts S1x1x8x128
  broadcasts_S1x1x8x128_S8x128x8x128 : S1x1x8x128.Broadcasts S8x128x8x128
  inb_S128x8x512_S128x8x128_0_0_128 : ∀ a, (![0, 0, 128] : Fin 3 → Nat) a + S128x8x128.size a ≤ S128x8x512.size a
  slices_S8x512_o0_128_S8x128 : S8x512.Slices ![0, 128] S8x128
  inb_S128x8x512_S128x8x128_0_0_256 : ∀ a, (![0, 0, 256] : Fin 3 → Nat) a + S128x8x128.size a ≤ S128x8x512.size a
  slices_S8x512_o0_256_S8x128 : S8x512.Slices ![0, 256] S8x128
  inb_S128x8x512_S128x8x128_0_0_384 : ∀ a, (![0, 0, 384] : Fin 3 → Nat) a + S128x8x128.size a ≤ S128x8x512.size a
  slices_S8x512_o0_384_S8x128 : S8x512.Slices ![0, 384] S8x128
  shapeCasts_S8x128_S8x128x1 : S8x128.ShapeCasts S8x128x1
  shapeCasts_S8_S1x1x8 : S8.ShapeCasts S1x1x8
  broadcasts_S8x128x1_S8x128x8 : S8x128x1.Broadcasts S8x128x8
  broadcasts_S1x1x8_S8x128x8 : S1x1x8.Broadcasts S8x128x8
  inb_S8x128_S8x128_0_0 : ∀ a, (![0, 0] : Fin 2 → Nat) a + S8x128.size a ≤ S8x128.size a
  h_S8x128 : 0 < S8x128.numel
  reducesTo_S64x256_S64_d1 : S64x256.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S64x512.size a
  hwx0_0 : ∀ i : grid0.Coords, EltTy.bits .f32 = 32 ∨ (Rect.block (s := S64x512) S8x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8x512.size a ≤ S256x8x512.size a
  hwx0_3 : ∀ i : grid0.Coords, EltTy.bits .f32 = 32 ∨ (Rect.block (s := S256x8x512) S128x8x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x8x512.size a ≤ S256x8x512.size a
  hwx0_4 : ∀ i : grid0.Coords, EltTy.bits .f32 = 32 ∨ (Rect.block (s := S256x8x512) S128x8x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S8x512.size a
  hwx0_5 : ∀ i : grid0.Coords, EltTy.bits .f32 = 32 ∨ (Rect.block (s := S8x512) S8x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x512.size a ≤ S8x512.size a
  hwx0_6 : ∀ i : grid0.Coords, EltTy.bits .f32 = 32 ∨ (Rect.block (s := S8x512) S8x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S64x256.size a
  hwx0_7 : ∀ i : grid0.Coords, EltTy.bits .f32 = 32 ∨ (Rect.block (s := S64x256) S8x128.size (cc0_transform_7 i) (hinb0_7 i)).WholeWords (EltTy.packing .f32)

variable [Facts₀]

abbrev win0_0 : Pipeline.Window sig grid0 :=
  Pipeline.Window.ofSpec (Memref.whole main_arg0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x8x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x8x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x512 : Shape := ⟨2, ![64, 512]⟩
abbrev S512 : Shape := ⟨1, ![512]⟩
abbrev S256x8x512 : Shape := ⟨3, ![256, 8, 512]⟩
abbrev S8x512 : Shape := ⟨2, ![8, 512]⟩
abbrev S_ : Shape := ⟨0, ![]⟩
abbrev S64 : Shape := ⟨1, ![64]⟩
abbrev S64x1 : Shape := ⟨2, ![64, 1]⟩
abbrev S1x512 : Shape := ⟨2, ![1, 512]⟩
abbrev S1x256x8x512 : Shape := ⟨4, ![1, 256, 8, 512]⟩
abbrev S64x1x1x512 : Shape := ⟨4, ![64, 1, 1, 512]⟩
abbrev S64x256x8x512 : Shape := ⟨4, ![64, 256, 8, 512]⟩
abbrev S64x256 : Shape := ⟨2, ![64, 256]⟩
abbrev S64x256x1x1 : Shape := ⟨4, ![64, 256, 1, 1]⟩
abbrev S1x1x8x512 : Shape := ⟨4, ![1, 1, 8, 512]⟩
abbrev S64x256x8 : Shape := ⟨3, ![64, 256, 8]⟩

abbrev nBuf : Space → Nat
  | .hbm => 107
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S512, .f32⟩
  | .hbm, ⟨2, _⟩ => ⟨S512, .f32⟩
  | .hbm, ⟨3, _⟩ => ⟨S256x8x512, .f32⟩
  | .hbm, ⟨4, _⟩ => ⟨S256x8x512, .f32⟩
  | .hbm, ⟨5, _⟩ => ⟨S8x512, .f32⟩
  | .hbm, ⟨6, _⟩ => ⟨S8x512, .f32⟩
  | .hbm, ⟨7, _⟩ => ⟨S_, .f32⟩
  | .hbm, ⟨8, _⟩ => ⟨S64, .f32⟩
  | .hbm, ⟨9, _⟩ => ⟨S64x1, .f32⟩
  | .hbm, ⟨10, _⟩ => ⟨S_, .f32⟩
  | .hbm, ⟨11, _⟩ => ⟨S64x1, .f32⟩
  | .hbm, ⟨12, _⟩ => ⟨S64x1, .f32⟩
  | .hbm, ⟨13, _⟩ => ⟨S64x512, .f32⟩
  | .hbm, ⟨14, _⟩ => ⟨S64x512, .f32⟩
  | .hbm, ⟨15, _⟩ => ⟨S64x512, .f32⟩
  | .hbm, ⟨16, _⟩ => ⟨S_, .f32⟩
  | .hbm, ⟨17, _⟩ => ⟨S64, .f32⟩
  | .hbm, ⟨18, _⟩ => ⟨S64x1, .f32⟩
  | .hbm, ⟨19, _⟩ => ⟨S_, .f32⟩
  | .hbm, ⟨20, _⟩ => ⟨S64x1, .f32⟩
  | .hbm, ⟨21, _⟩ => ⟨S64x1, .f32⟩
  | .hbm, ⟨22, _⟩ => ⟨S64x512, .f32⟩
  | .hbm, ⟨23, _⟩ => ⟨S64x512, .f32⟩
  | .hbm, ⟨24, _⟩ => ⟨S_, .f32⟩
  | .hbm, ⟨25, _⟩ => ⟨S64x1, .f32⟩
  | .hbm, ⟨26, _⟩ => ⟨S64x1, .f32⟩
  | .hbm, ⟨27, _⟩ => ⟨S64x1, .f32⟩
  | .hbm, ⟨28, _⟩ => ⟨S64x512, .f32⟩
  | .hbm, ⟨29, _⟩ => ⟨S64x512, .f32⟩
  | .hbm, ⟨30, _⟩ => ⟨S1x512, .f32⟩
  | .hbm, ⟨31, _⟩ => ⟨S64x512, .f32⟩
  | .hbm, ⟨32, _⟩ => ⟨S64x512, .f32⟩
  | .hbm, ⟨33, _⟩ => ⟨S1x512, .f32⟩
  | .hbm, ⟨34, _⟩ => ⟨S64x512, .f32⟩
  | .hbm, ⟨35, _⟩ => ⟨S64x512, .f32⟩
  | .hbm, ⟨36, _⟩ => ⟨S1x256x8x512, .f32⟩
  | .hbm, ⟨37, _⟩ => ⟨S64x1x1x512, .f32⟩
  | .hbm, ⟨38, _⟩ => ⟨S64x256x8x512, .f32⟩
  | .hbm, ⟨39, _⟩ => ⟨S64x256x8x512, .f32⟩
  | .hbm, ⟨40, _⟩ => ⟨S64x256x8x512, .f32⟩
  | .hbm, ⟨41, _⟩ => ⟨S1x256x8x512, .f32⟩
  | .hbm, ⟨42, _⟩ => ⟨S64x256x8x512, .f32⟩
  | .hbm, ⟨43, _⟩ => ⟨S64x256x8x512, .f32⟩
  | .hbm, ⟨44, _⟩ => ⟨S64x256x8x512, .f32⟩
  | .hbm, ⟨45, _⟩ => ⟨S64x256x8x512, .f32⟩
  | .hbm, ⟨46, _⟩ => ⟨S_, .f32⟩
  | .hbm, ⟨47, _⟩ => ⟨S64x256x8x512, .f32⟩
  | .hbm, ⟨48, _⟩ => ⟨S64x256x8x512, .f32⟩
  | .hbm, ⟨49, _⟩ => ⟨S_, .f32⟩
  | .hbm, ⟨50, _⟩ => ⟨S64x256x8x512, .f32⟩
  | .hbm, ⟨51, _⟩ => ⟨S64x256x8x512, .f32⟩
  | .hbm, ⟨52, _⟩ => ⟨S_, .f32⟩
  | .hbm, ⟨53, _⟩ => ⟨S64x256, .f32⟩
  | .hbm, ⟨54, _⟩ => ⟨S64x256x1x1, .f32⟩
  | .hbm, ⟨55, _⟩ => ⟨S_, .f32⟩
  | .hbm, ⟨56, _⟩ => ⟨S64x256x1x1, .f32⟩
  | .hbm, ⟨57, _⟩ => ⟨S64x256x1x1, .f32⟩
  | .hbm, ⟨58, _⟩ => ⟨S64x256x8x512, .f32⟩
  | .hbm, ⟨59, _⟩ => ⟨S64x256x8x512, .f32⟩
  | .hbm, ⟨60, _⟩ => ⟨S64x256x8x512, .f32⟩
  | .hbm, ⟨61, _⟩ => ⟨S_, .f32⟩
  | .hbm, ⟨62, _⟩ => ⟨S64x256, .f32⟩
  | .hbm, ⟨63, _⟩ => ⟨S64x256x1x1, .f32⟩
  | .hbm, ⟨64, _⟩ => ⟨S_, .f32⟩
  | .hbm, ⟨65, _⟩ => ⟨S64x256x1x1, .f32⟩
  | .hbm, ⟨66, _⟩ => ⟨S64x256x1x1, .f32⟩
  | .hbm, ⟨67, _⟩ => ⟨S64x256x8x512, .f32⟩
  | .hbm, ⟨68, _⟩ => ⟨S64x256x8x512, .f32⟩
  | .hbm, ⟨69, _⟩ => ⟨S_, .f32⟩
  | .hbm, ⟨70, _⟩ => ⟨S64x256x1x1, .f32⟩
  | .hbm, ⟨71, _⟩ => ⟨S64x256x1x1, .f32⟩
  | .hbm, ⟨72, _⟩ => ⟨S64x256x1x1, .f32⟩
  | .hbm, ⟨73, _⟩ => ⟨S64x256x8x512, .f32⟩
  | .hbm, ⟨74, _⟩ => ⟨S64x256x8x512, .f32⟩
  | .hbm, ⟨75, _⟩ => ⟨S1x1x8x512, .f32⟩
  | .hbm, ⟨76, _⟩ => ⟨S64x256x8x512, .f32⟩
  | .hbm, ⟨77, _⟩ => ⟨S64x256x8x512, .f32⟩
  | .hbm, ⟨78, _⟩ => ⟨S1x1x8x512, .f32⟩
  | .hbm, ⟨79, _⟩ => ⟨S64x256x8x512, .f32⟩
  | .hbm, ⟨80, _⟩ => ⟨S64x256x8x512, .f32⟩
  | .hbm, ⟨81, _⟩ => ⟨S_, .f32⟩
  | .hbm, ⟨82, _⟩ => ⟨S64x256x8, .f32⟩
  | .hbm, ⟨83, _⟩ => ⟨S64x256x8, .f32⟩
  | .hbm, ⟨84, _⟩ => ⟨S64x256x8, .f32⟩
  | .hbm, ⟨85, _⟩ => ⟨S_, .f32⟩
  | .hbm, ⟨86, _⟩ => ⟨S64x256x8, .f32⟩
  | .hbm, ⟨87, _⟩ => ⟨S64x256x8, .f32⟩
  | .hbm, ⟨88, _⟩ => ⟨S_, .f32⟩
  | .hbm, ⟨89, _⟩ => ⟨S64x256x8, .f32⟩
  | .hbm, ⟨90, _⟩ => ⟨S64x256x8, .f32⟩
  | .hbm, ⟨91, _⟩ => ⟨S_, .f32⟩
  | .hbm, ⟨92, _⟩ => ⟨S64x256, .f32⟩
  | .hbm, ⟨93, _⟩ => ⟨S_, .f32⟩
  | .hbm, ⟨94, _⟩ => ⟨S64, .f32⟩
  | .hbm, ⟨95, _⟩ => ⟨S_, .f32⟩
  | .hbm, ⟨96, _⟩ => ⟨S64, .f32⟩
  | .hbm, ⟨97, _⟩ => ⟨S64, .f32⟩
  | .hbm, ⟨98, _⟩ => ⟨S64x1, .f32⟩
  | .hbm, ⟨99, _⟩ => ⟨S64x256, .f32⟩
  | .hbm, ⟨100, _⟩ => ⟨S64x256, .f32⟩
  | .hbm, ⟨101, _⟩ => ⟨S64x256, .f32⟩
  | .hbm, ⟨102, _⟩ => ⟨S_, .f32⟩
  | .hbm, ⟨103, _⟩ => ⟨S64, .f32⟩
  | .hbm, ⟨104, _⟩ => ⟨S64x1, .f32⟩
  | .hbm, ⟨105, _⟩ => ⟨S64x256, .f32⟩
  | .hbm, ⟨106, _⟩ => ⟨S64x256, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_cst_15 : Ref sig .tc := ⟨.hbm, 93, rfl⟩
abbrev main_v70 : Ref sig .tc := ⟨.hbm, 94, rfl⟩
abbrev main_cst_16 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_17 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩

abbrev nD : Nat := 1
abbrev τ : Topo := Topo.v7x

variable {F : FTy → Type} [FloatOps F]

class Facts₀ : Prop where
  reducesTo_S64x512_S64_d1 : S64x512.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x512_0_1 : S64x1.BroadcastsInDim S64x512 (![0, 1] : Fin 2 → Fin S64x512.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S256x8x512_S1x256x8x512_1_2_3 : S256x8x512.BroadcastsInDim S1x256x8x512 (![1, 2, 3] : Fin 3 → Fin S1x256x8x512.rank)
  bcast_S64x512_S64x1x1x512_0_3 : S64x512.BroadcastsInDim S64x1x1x512 (![0, 3] : Fin 2 → Fin S64x1x1x512.rank)
  bcast_S1x256x8x512_S64x256x8x512_0_1_2_3 : S1x256x8x512.BroadcastsInDim S64x256x8x512 (![0, 1, 2, 3] : Fin 4 → Fin S64x256x8x512.rank)
  bcast_S64x1x1x512_S64x256x8x512_0_1_2_3 : S64x1x1x512.BroadcastsInDim S64x256x8x512 (![0, 1, 2, 3] : Fin 4 → Fin S64x256x8x512.rank)
  bcast_S_S64x256x8x512 : S_.BroadcastsInDim S64x256x8x512 (![] : Fin 0 → Fin S64x256x8x512.rank)
  reducesTo_S64x256x8x512_S64x256_d2_3 : S64x256x8x512.ReducesTo [2, 3] S64x256
  bcast_S64x256_S64x256x1x1_0_1 : S64x256.BroadcastsInDim S64x256x1x1 (![0, 1] : Fin 2 → Fin S64x256x1x1.rank)
  bcast_S_S64x256x1x1 : S_.BroadcastsInDim S64x256x1x1 (![] : Fin 0 → Fin S64x256x1x1.rank)
  bcast_S64x256x1x1_S64x256x8x512_0_1_2_3 : S64x256x1x1.BroadcastsInDim S64x256x8x512 (![0, 1, 2, 3] : Fin 4 → Fin S64x256x8x512.rank)
  bcast_S8x512_S1x1x8x512_2_3 : S8x512.BroadcastsInDim S1x1x8x512 (![2, 3] : Fin 2 → Fin S1x1x8x512.rank)
  bcast_S1x1x8x512_S64x256x8x512_0_1_2_3 : S1x1x8x512.BroadcastsInDim S64x256x8x512 (![0, 1, 2, 3] : Fin 4 → Fin S64x256x8x512.rank)
  reducesTo_S64x256x8x512_S64x256x8_d3 : S64x256x8x512.ReducesTo [3] S64x256x8
  bcast_S_S64x256x8 : S_.BroadcastsInDim S64x256x8 (![] : Fin 0 → Fin S64x256x8.rank)
  reducesTo_S64x256x8_S64x256_d2 : S64x256x8.ReducesTo [2] S64x256
  reducesTo_S64x256_S64_d1 : S64x256.ReducesTo [1] S64
  bcast_S_S64 : S_.BroadcastsInDim S64 (![] : Fin 0 → Fin S64.rank)
  bcast_S64x1_S64x256_0_1 : S64x1.BroadcastsInDim S64x256 (![0, 1] : Fin 2 → Fin S64x256.rank)

variable [Facts₀]

class Facts : Prop extends Facts₀ where

variable [Facts]
-- ==== Proof.Chunks.lean ====
/-
  A row of 512 lanes read as four chunks of 128: lane k of the chunk starting at `off` is lane `off + k` of the row, and
  a sum over the row is the sum of the four chunks' sums (in any commutative additive monoid: the extended reals with no
  finiteness). The running totals of a table summed chunk by chunk, first along the lanes and then along the rows, and of
  one row summed chunk by chunk, both started from zero, are the plain double and single sums.
-/
import Idealize.ShloMosaic.PureOps.Ideal

noncomputable section

namespace Synapse

/-- Lane `k` of the chunk of 128 lanes that starts at lane `off`. -/
def lane (off : Nat) (h : off + 128 ≤ 512) (k : Fin 128) : Fin 512 := ⟨off + k.val, by have := k.isLt; omega⟩

theorem lane_val (off : Nat) (h : off + 128 ≤ 512) (k : Fin 128) : (lane off h k).val = off + k.val := rfl

/-- A sum over 512 lanes is the sum over its four chunks. -/
theorem sum_lanes {M : Type*} [AddCommMonoid M] (f : Fin 512 → M) :
    ∑ d, f d = (∑ k, f (lane 0 (by norm_num) k)) + (∑ k, f (lane 128 (by norm_num) k))
      + (∑ k, f (lane 256 (by norm_num) k)) + ∑ k, f (lane 384 (by norm_num) k) := by
  have key : ∀ (n : Nat) (hn : n + 128 ≤ 512) (g : Fin (n + 128) → M),
      ∑ i : Fin (n + 128), g i = ∑ i : Fin n, g (Fin.castAdd 128 i) + ∑ k : Fin 128, g (Fin.natAdd n k) :=
    fun n _ g => Fin.sum_univ_add g
  have h3 := key 384 (by norm_num) (fun i => f ⟨i.val, i.isLt⟩)
  have h2 := key 256 (by norm_num) (fun i => f ⟨i.val, by have := i.isLt; omega⟩)
  have h1 := key 128 (by norm_num) (fun i => f ⟨i.val, by have := i.isLt; omega⟩)
  have h0 : ∑ i : Fin 128, f ⟨i.val, by have := i.isLt; omega⟩ = ∑ k, f (lane 0 (by norm_num) k) :=
    Finset.sum_congr rfl fun k _ => congrArg f (Fin.ext (by show k.val = 0 + k.val; omega))
  calc ∑ d, f d = ∑ i : Fin (384 + 128), f ⟨i.val, i.isLt⟩ := rfl
    _ = _ := h3
    _ = _ := by
      rw [show (∑ i : Fin 384, f ⟨(Fin.castAdd 128 i).val, (Fin.castAdd 128 i).isLt⟩)
          = ∑ i : Fin (256 + 128), f ⟨i.val, by have := i.isLt; omega⟩ from rfl, h2,
        show (∑ i : Fin 256, f ⟨(Fin.castAdd 128 i).val, by have := (Fin.castAdd 128 i).isLt; omega⟩)
          = ∑ i : Fin (128 + 128), f ⟨i.val, by have := i.isLt; omega⟩ from rfl, h1,
        show (∑ i : Fin 128, f ⟨(Fin.castAdd 128 i).val, by have := (Fin.castAdd 128 i).isLt; omega⟩)
          = ∑ i : Fin 128, f ⟨i.val, by have := i.isLt; omega⟩ from rfl, h0]
      rfl

/-- A table summed chunk by chunk (lanes, then rows), the running total started from zero, is the double sum. -/
theorem sum_table_lanes {M : Type*} [AddCommMonoid M] (f : Fin 8 → Fin 512 → M) :
    0 + (∑ m, ∑ k, f m (lane 0 (by norm_num) k)) + (∑ m, ∑ k, f m (lane 128 (by norm_num) k))
        + (∑ m, ∑ k, f m (lane 256 (by norm_num) k)) + (∑ m, ∑ k, f m (lane 384 (by norm_num) k))
      = ∑ m, ∑ d, f m d := by
  rw [zero_add, ← Finset.sum_add_distrib, ← Finset.sum_add_distrib, ← Finset.sum_add_distrib]
  exact Finset.sum_congr rfl fun m _ => (sum_lanes (f m)).symm

/-- One row summed chunk by chunk, the running total started from zero, is the sum over the row. -/
theorem sum_row_lanes {M : Type*} [AddCommMonoid M] (g : Fin 512 → M) :
    0 + (∑ k, g (lane 0 (by norm_num) k)) + (∑ k, g (lane 128 (by norm_num) k))
        + (∑ k, g (lane 256 (by norm_num) k)) + (∑ k, g (lane 384 (by norm_num) k))
      = ∑ d, g d := by
  rw [zero_add]; exact (sum_lanes g).symm

end Synapse

end
-- ==== Proof.Layout.lean ====
/-
  The kernel's layout operations read at coordinates.

  The body works on a block of 8 samples by 128 output units. A unit's table [128, 8, 128] (one chunk of 128 lanes of the
  128 units' 8 by 512 tables) is spread over the samples, a chunk [8, 128] of the normalised rows over units and table
  rows, a chunk [8, 128] of a weight table over samples and units; a per-(sample, unit) number [8, 128] is spread over
  the 8 table rows and a per-row number [8] over samples and units; a per-sample number [8] over the row's 512 lanes and
  a row [1, 512] over the samples. Each lemma reads such a cast-then-broadcast at coordinates as the operand at the
  coordinates it copies. Also: a chunk of lanes cut from a row, a load of a chunk of lanes of a table, and the three
  sums over a last axis as sums over that axis's coordinate.
-/
import proofs.«161766_j76888504533025_1_alg».proof.KernelIdeal
import proofs.«161766_j76888504533025_1_alg».proof.Proof.Chunks
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layout

open Idealize.ShloMosaic Idealize.ShloMosaic.ValueIdx Cert.KernelIdeal Synapse

variable {α : Type}

/-! ## Casts and broadcasts -/

/-- A chunk of the units' tables spread over the samples. -/
theorem table_spread (v : S128x8x128.Idx → α) (hc : S128x8x128.ShapeCasts S1x128x8x128)
    (hb : S1x128x8x128.Broadcasts S8x128x8x128) (p : Fin 8) (q : Fin 128) (m : Fin 8) (k : Fin 128) :
    broadcastTo S8x128x8x128 (shapeCast S1x128x8x128 v hc) hb (ix4 p q m k) = v (ix3 q m k) :=
  (broadcastTo_apply _ hb (ix4 p q m k) (ix4 (0 : Fin 1) q m k) fun a => match a with
    | ⟨0, _⟩ => rfl | ⟨1, _⟩ => rfl | ⟨2, _⟩ => rfl | ⟨3, _⟩ => rfl).trans
    (shapeCast_abc_1abc_apply v hc 0 q m k)

/-- A chunk of the samples' rows spread over units and table rows. -/
theorem rows_spread (u : S8x128.Idx → α) (hc : S8x128.ShapeCasts S8x1x1x128)
    (hb : S8x1x1x128.Broadcasts S8x128x8x128) (p : Fin 8) (q : Fin 128) (m : Fin 8) (k : Fin 128) :
    broadcastTo S8x128x8x128 (shapeCast S8x1x1x128 u hc) hb (ix4 p q m k) = u (ix2 p k) :=
  (broadcastTo_apply _ hb (ix4 p q m k) (ix4 p (0 : Fin 1) (0 : Fin 1) k) fun a => match a with
    | ⟨0, _⟩ => rfl | ⟨1, _⟩ => rfl | ⟨2, _⟩ => rfl | ⟨3, _⟩ => rfl).trans
    (shapeCast_apply u hc _ (ix2 p k) (by
      rw [Shape.rowMajor_val_two, Shape.rowMajor_val_four]
      show p.val * 128 + k.val = ((p.val * 1 + 0) * 1 + 0) * 128 + k.val
      omega))

/-- A chunk of a weight table spread over samples and units. -/
theorem weights_spread (u : S8x128.Idx → α) (hc : S8x128.ShapeCasts S1x1x8x128)
    (hb : S1x1x8x128.Broadcasts S8x128x8x128) (p : Fin 8) (q : Fin 128) (m : Fin 8) (k : Fin 128) :
    broadcastTo S8x128x8x128 (shapeCast S1x1x8x128 u hc) hb (ix4 p q m k) = u (ix2 m k) :=
  (broadcastTo_apply _ hb (ix4 p q m k) (ix4 (0 : Fin 1) (0 : Fin 1) m k) fun a => match a with
    | ⟨0, _⟩ => rfl | ⟨1, _⟩ => rfl | ⟨2, _⟩ => rfl | ⟨3, _⟩ => rfl).trans
    (shapeCast_apply u hc _ (ix2 m k) (by
      rw [Shape.rowMajor_val_two, Shape.rowMajor_val_four]
      show m.val * 128 + k.val = ((0 * 1 + 0) * 8 + m.val) * 128 + k.val
      omega))

/-- A number per (sample, unit) spread over the 8 table rows. -/
theorem pair_spread (u : S8x128.Idx → α) (hc : S8x128.ShapeCasts S8x128x1)
    (hb : S8x128x1.Broadcasts S8x128x8) (p : Fin 8) (q : Fin 128) (m : Fin 8) :
    broadcastTo S8x128x8 (shapeCast S8x128x1 u hc) hb (ix3 p q m) = u (ix2 p q) :=
  (broadcastTo_apply _ hb (ix3 p q m) (ix3 p q (0 : Fin 1)) fun a => match a with
    | ⟨0, _⟩ => rfl | ⟨1, _⟩ => rfl | ⟨2, _⟩ => rfl).trans
    (shapeCast_apply u hc _ (ix2 p q) (by
      rw [Shape.rowMajor_val_two, Shape.rowMajor_val_three]
      show p.val * 128 + q.val = (p.val * 128 + q.val) * 1 + 0
      omega))

/-- A number per table row spread over samples and units. -/
theorem perRow_spread (u : S8.Idx → α) (hc : S8.ShapeCasts S1x1x8)
    (hb : S1x1x8.Broadcasts S8x128x8) (p : Fin 8) (q : Fin 128) (m : Fin 8) :
    broadcastTo S8x128x8 (shapeCast S1x1x8 u hc) hb (ix3 p q m) = u (ix1 m) :=
  (broadcastTo_apply _ hb (ix3 p q m) (ix3 (0 : Fin 1) (0 : Fin 1) m) fun a => match a with
    | ⟨0, _⟩ => rfl | ⟨1, _⟩ => rfl | ⟨2, _⟩ => rfl).trans
    (shapeCast_apply u hc _ (ix1 m) (by
      rw [Shape.rowMajor_val_one, Shape.rowMajor_val_three]
      show m.val = (0 * 1 + 0) * 8 + m.val
      omega))

/-- A number per sample spread over the 512 lanes of its row. -/
theorem perSample_spread (u : S8.Idx → α) (hc : S8.ShapeCasts S8x1)
    (hb : S8x1.Broadcasts S8x512) (p : Fin 8) (d : Fin 512) :
    broadcastTo S8x512 (shapeCast S8x1 u hc) hb (ix2 p d) = u (ix1 p) :=
  (broadcastTo_apply _ hb (ix2 p d) (ix2 p (0 : Fin 1)) fun a => match a with
    | ⟨0, _⟩ => rfl | ⟨1, _⟩ => rfl).trans
    (shapeCast_apply u hc _ (ix1 p) (by
      rw [Shape.rowMajor_val_one, Shape.rowMajor_val_two]
      show p.val = p.val * 1 + 0
      omega))

/-- A column of one number per sample spread over the 512 lanes. -/
theorem col_spread (v : S8x1.Idx → α) (hb : S8x1.Broadcasts S8x512) (p : Fin 8) (d : Fin 512) :
    broadcastTo S8x512 v hb (ix2 p d) = v (ix2 p (0 : Fin 1)) :=
  broadcastTo_apply _ hb (ix2 p d) (ix2 p (0 : Fin 1)) fun a => match a with
    | ⟨0, _⟩ => rfl | ⟨1, _⟩ => rfl

/-- One number per sample as a column. -/
theorem col_cast (u : S8.Idx → α) (hc : S8.ShapeCasts S8x1) (p : Fin 8) (z : Fin 1) :
    shapeCast S8x1 u hc (ix2 p z) = u (ix1 p) :=
  shapeCast_apply u hc _ (ix1 p) (by
    have hz : z.val = 0 := by omega
    rw [Shape.rowMajor_val_one, Shape.rowMajor_val_two]
    show p.val = p.val * 1 + z.val
    omega)

/-- A chunk of the units' tables, already carrying a leading unit axis, spread over the samples. -/
theorem samples_spread (v : S1x128x8x128.Idx → α) (hb : S1x128x8x128.Broadcasts S8x128x8x128)
    (p : Fin 8) (q : Fin 128) (m : Fin 8) (k : Fin 128) :
    broadcastTo S8x128x8x128 v hb (ix4 p q m k) = v (ix4 (0 : Fin 1) q m k) :=
  broadcastTo_apply _ hb (ix4 p q m k) (ix4 (0 : Fin 1) q m k) fun a => match a with
    | ⟨0, _⟩ => rfl | ⟨1, _⟩ => rfl | ⟨2, _⟩ => rfl | ⟨3, _⟩ => rfl

/-- One row of 512 lanes spread over the samples. -/
theorem row_spread (v : S1x512.Idx → α) (hc : S1x512.ShapeCasts S1x512)
    (hb : S1x512.Broadcasts S8x512) (p : Fin 8) (d : Fin 512) :
    broadcastTo S8x512 (shapeCast S1x512 v hc) hb (ix2 p d) = v (ix2 (0 : Fin 1) d) := by
  rw [shapeCast_self]
  exact broadcastTo_apply _ hb (ix2 p d) (ix2 (0 : Fin 1) d) fun a => match a with
    | ⟨0, _⟩ => rfl | ⟨1, _⟩ => rfl

/-! ## Chunks of lanes -/

/-- The chunk of 128 lanes from lane `off` cut out of 8 rows of 512. -/
theorem chunk_rows (off : Nat) (hoff : off + 128 ≤ 512) (v : S8x512.Idx → α) (h : S8x512.Slices ![0, off] S8x128)
    (p : Fin 8) (k : Fin 128) :
    extractStridedSlice S8x128 ![0, off] v h (ix2 p k) = v (ix2 p (lane off hoff k)) :=
  slice2_axis1_apply off v h p k (lane off hoff k) rfl

/-- A load of the chunk of 128 lanes from lane `off` of the units' tables. -/
theorem chunk_tables {Val : EltTy → Type} {e : EltTy} (off : Nat) (hoff : off + 128 ≤ 512) (x : S128x8x512.Idx → Val e)
    (inb : ∀ a, (![0, 0, off] : Fin 3 → Nat) a + S128x8x128.size a ≤ S128x8x512.size a)
    (q : Fin 128) (m : Fin 8) (k : Fin 128) :
    View.ld x (Rect.unit (s := S128x8x512) ![0, 0, off] S128x8x128.size inb) (ix3 q m k)
      = x (ix3 q m (lane off hoff k)) := by
  show x _ = x _
  refine congrArg x (funext fun a => Fin.ext ?_)
  match a with
  | ⟨0, _⟩ => show 0 + 1 * q.val = q.val; omega
  | ⟨1, _⟩ => show 0 + 1 * m.val = m.val; omega
  | ⟨2, _⟩ => show off + 1 * k.val = off + k.val; omega

/-- The chunk of 128 lanes from lane `off` of the units' tables, as a table of its own. -/
def tableChunk {Val : EltTy → Type} {e : EltTy} (off : Nat) (hoff : off + 128 ≤ 512) (x : S128x8x512.Idx → Val e) :
    S128x8x128.Idx → Val e :=
  fun j => x (ix3 (j 0) (j 1) (lane off hoff (j 2)))

theorem tableChunk_apply {Val : EltTy → Type} {e : EltTy} (off : Nat) (hoff : off + 128 ≤ 512) (x : S128x8x512.Idx → Val e)
    (q : Fin 128) (m : Fin 8) (k : Fin 128) :
    tableChunk off hoff x (ix3 q m k) = x (ix3 q m (lane off hoff k)) := rfl

/-- A load of a chunk of lanes is that chunk. -/
theorem load_chunk {Val : EltTy → Type} {e : EltTy} (off : Nat) (hoff : off + 128 ≤ 512) (x : S128x8x512.Idx → Val e)
    (inb : ∀ a, (![0, 0, off] : Fin 3 → Nat) a + S128x8x128.size a ≤ S128x8x512.size a) :
    View.ld x (Rect.unit (s := S128x8x512) ![0, 0, off] S128x8x128.size inb) = tableChunk off hoff x := by
  funext j
  obtain ⟨q, m, k, rfl⟩ : ∃ (q : Fin 128) (m : Fin 8) (k : Fin 128), j = ix3 q m k := ⟨j 0, j 1, j 2, eq_ix3 j⟩
  exact chunk_tables off hoff x inb q m k

/-! ## Sums over a last axis

Each sum gets a name of its own (`laneSums`, `rowSums`, `rowTotals`), read at coordinates by definition; the printed
reduction is that function (`*_eq`). -/

/-- The sums over the 128 lanes of a chunk. -/
def laneSums (v : FVec Ideal S8x128x8x128 .f32) : FVec Ideal S8x128x8 .f32 :=
  fun j => ∑ k : Fin 128, v (ix4 (j 0) (j 1) (j 2) k)

theorem laneSums_apply (v : FVec Ideal S8x128x8x128 .f32) (p : Fin 8) (q : Fin 128) (m : Fin 8) :
    laneSums v (ix3 p q m) = ∑ k : Fin 128, v (ix4 p q m k) := rfl

theorem laneSums_eq (v : FVec Ideal S8x128x8x128 .f32) (h : S8x128x8x128.Reduces [3] S8x128x8)
    (hφ : FKind.Formats .f32) (hacc : (0x00000000#32 : BitVec 32) = 0x00000000#32) :
    multiReduction .add [3] S8x128x8 v 0x00000000#32 h hφ hacc = laneSums v := by
  funext j
  obtain ⟨p, q, m, rfl⟩ : ∃ (p : Fin 8) (q : Fin 128) (m : Fin 8), j = ix3 p q m := ⟨j 0, j 1, j 2, eq_ix3 j⟩
  exact (Ideal.multiReduction_add_single v _ h hφ hacc (ix3 p q m)).trans
    (Finset.sum_congr rfl fun k _ => congrArg v (funext fun a => Fin.ext (by
      match a with | ⟨0, _⟩ => rfl | ⟨1, _⟩ => rfl | ⟨2, _⟩ => rfl | ⟨3, _⟩ => rfl)))

/-- The sums over the 8 table rows. -/
def rowSums (v : FVec Ideal S8x128x8 .f32) : FVec Ideal S8x128 .f32 :=
  fun j => ∑ m : Fin 8, v (ix3 (j 0) (j 1) m)

theorem rowSums_apply (v : FVec Ideal S8x128x8 .f32) (p : Fin 8) (q : Fin 128) :
    rowSums v (ix2 p q) = ∑ m : Fin 8, v (ix3 p q m) := rfl

theorem rowSums_eq (v : FVec Ideal S8x128x8 .f32) (h : S8x128x8.Reduces [2] S8x128)
    (hφ : FKind.Formats .f32) (hacc : (0x00000000#32 : BitVec 32) = 0x00000000#32) :
    multiReduction .add [2] S8x128 v 0x00000000#32 h hφ hacc = rowSums v := by
  funext j
  obtain ⟨p, q, rfl⟩ : ∃ (p : Fin 8) (q : Fin 128), j = ix2 p q := ⟨j 0, j 1, eq_ix2 j⟩
  exact (Ideal.multiReduction_add_single v _ h hφ hacc (ix2 p q)).trans
    (Finset.sum_congr rfl fun k _ => congrArg v (funext fun a => Fin.ext (by
      match a with | ⟨0, _⟩ => rfl | ⟨1, _⟩ => rfl | ⟨2, _⟩ => rfl)))

/-- The sums over the 512 lanes of each of 8 rows. -/
def rowTotals (v : FVec Ideal S8x512 .f32) : FVec Ideal S8 .f32 :=
  fun j => ∑ d : Fin 512, v (ix2 (j 0) d)

theorem rowTotals_apply (v : FVec Ideal S8x512 .f32) (p : Fin 8) :
    rowTotals v (ix1 p) = ∑ d : Fin 512, v (ix2 p d) := rfl

theorem rowTotals_eq (v : FVec Ideal S8x512 .f32) (h : S8x512.Reduces [1] S8)
    (hφ : FKind.Formats .f32) (hacc : (0x00000000#32 : BitVec 32) = 0x00000000#32) :
    multiReduction .add [1] S8 v 0x00000000#32 h hφ hacc = rowTotals v := by
  funext j
  obtain ⟨p, rfl⟩ : ∃ (p : Fin 8), j = ix1 p := ⟨j 0, eq_ix1 j⟩
  exact (Ideal.multiReduction_add_single v _ h hφ hacc (ix1 p)).trans
    (Finset.sum_congr rfl fun k _ => congrArg v (funext fun a => Fin.ext (by
      match a with | ⟨0, _⟩ => rfl | ⟨1, _⟩ => rfl)))

end Cert.KernelIdeal.Layout

end
-- ==== Proof.LibOnePassVariance.lean ====
/-
  The variance of a finite family of real numbers, two ways, on the extended reals.

  For real numbers x_i, i in a finite type of n elements, n nonzero, write S1 for the sum of the x_i and S2 for the sum
  of their squares. The ONE-PASS form of the (biased) variance is  S2 / n - (S1 / n) * (S1 / n);  the TWO-PASS form is
  (sum over i of (x_i - S1 / n) * (x_i - S1 / n)) / n.  Expanding the square gives
      sum (x_i - m)^2 = S2 - 2 m S1 + n m^2,   with m = S1 / n:   = S2 - S1^2 / n,
  so both are S2 / n - S1^2 / n^2. The expansion moves the factor m across a sum and cancels n against the count of
  terms: both steps fail at an infinite entry, which is why every entry is taken real here. Divisions are the ideal
  instance's `Ideal.div`, which for a nonzero real divisor is the product with its reciprocal.

  Also here: the inclusion of the reals commutes with finite sums (`coe_sum`); the mean and both variance forms of real
  entries are real, the variance nonnegative; and the inverse square root of a nonnegative real plus a positive real is
  a real. Generic in the index type; imports only the ideal instance.
-/
import Idealize.ShloMosaic.PureOps.Ideal

noncomputable section

namespace OnePassVariance

open Idealize.ShloMosaic

variable {ι : Type*}

/-- The inclusion of the reals in the extended reals commutes with finite sums. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable [Fintype ι]

/-- The mean of real entries, as a real. -/
def mean (x : ι → ℝ) (n : ℝ) : ℝ := (∑ i, x i) * (1 / n)

/-- The two-pass variance of real entries, as a real. -/
def var (x : ι → ℝ) (n : ℝ) : ℝ := (∑ i, (x i - mean x n) * (x i - mean x n)) * (1 / n)

/-- Over the reals: one pass equals two passes when `n` is the number of entries. -/
theorem real_forms (x : ι → ℝ) (n : ℝ) (hcard : (Fintype.card ι : ℝ) = n) (hn : n ≠ 0) :
    (∑ i, x i * x i) * (1 / n) - mean x n * mean x n = var x n := by
  have expand : ∑ i, (x i - mean x n) * (x i - mean x n)
      = (∑ i, x i * x i) - 2 * mean x n * (∑ i, x i) + n * (mean x n * mean x n) := by
    have h : ∀ i, (x i - mean x n) * (x i - mean x n) = x i * x i - 2 * mean x n * x i + mean x n * mean x n :=
      fun i => by ring
    simp only [h, Finset.sum_add_distrib, Finset.sum_sub_distrib, ← Finset.mul_sum, Finset.sum_const,
      Finset.card_univ, nsmul_eq_mul, hcard]
    ring
  unfold var
  rw [expand]
  unfold mean
  field_simp
  ring

/-- The variance is nonnegative when `n` is positive. -/
theorem var_nonneg (x : ι → ℝ) (n : ℝ) (hn : 0 < n) : 0 ≤ var x n := by
  unfold var
  exact mul_nonneg (Finset.sum_nonneg fun i _ => mul_self_nonneg _) (by positivity)

/-- The mean on the extended reals is the real mean. -/
theorem div_sum (x : ι → ℝ) (n : ℝ) (hn : n ≠ 0) :
    Ideal.div (∑ i, (x i : EReal)) (n : EReal) = ((mean x n : ℝ) : EReal) := by
  rw [Ideal.div_coe hn, ← coe_sum, ← EReal.coe_mul]; rfl

/-- The two-pass variance on the extended reals is the real variance. -/
theorem twoPass (x : ι → ℝ) (n : ℝ) (hn : n ≠ 0) :
    Ideal.div (∑ i, ((x i : EReal) - Ideal.div (∑ j, (x j : EReal)) (n : EReal))
        * ((x i : EReal) - Ideal.div (∑ j, (x j : EReal)) (n : EReal))) (n : EReal)
      = ((var x n : ℝ) : EReal) := by
  rw [div_sum x n hn, Ideal.div_coe hn]
  simp only [← EReal.coe_sub, ← EReal.coe_mul, ← coe_sum]
  rfl

/-- The one-pass variance on the extended reals is the real variance, when `n` is the number of entries. -/
theorem onePass (x : ι → ℝ) (n : ℝ) (hcard : (Fintype.card ι : ℝ) = n) (hn : n ≠ 0) :
    Ideal.div (∑ i, (x i : EReal) * (x i : EReal)) (n : EReal)
        - Ideal.div (∑ i, (x i : EReal)) (n : EReal) * Ideal.div (∑ i, (x i : EReal)) (n : EReal)
      = ((var x n : ℝ) : EReal) := by
  rw [div_sum x n hn, Ideal.div_coe hn]
  simp only [← EReal.coe_mul, ← coe_sum, ← EReal.coe_sub]
  exact congrArg _ (real_forms x n hcard hn)

/-- THE LAW: one pass equals two passes on the extended reals, for real entries. -/
theorem onePass_eq_twoPass (x : ι → ℝ) (n : ℝ) (hcard : (Fintype.card ι : ℝ) = n) (hn : n ≠ 0) :
    Ideal.div (∑ i, (x i : EReal) * (x i : EReal)) (n : EReal)
        - Ideal.div (∑ i, (x i : EReal)) (n : EReal) * Ideal.div (∑ i, (x i : EReal)) (n : EReal)
      = Ideal.div (∑ i, ((x i : EReal) - Ideal.div (∑ j, (x j : EReal)) (n : EReal))
        * ((x i : EReal) - Ideal.div (∑ j, (x j : EReal)) (n : EReal))) (n : EReal) :=
  (onePass x n hcard hn).trans (twoPass x n hn).symm

/-- The inverse square root of a nonnegative real plus a positive real is a real (and positive). -/
theorem rsqrt_real (v e : ℝ) (hv : 0 ≤ v) (he : 0 < e) :
    Ideal.rsqrt (((v : ℝ) : EReal) + ((e : ℝ) : EReal)) = (((Real.sqrt (v + e))⁻¹ : ℝ) : EReal) := by
  have hpos : 0 < v + e := by linarith
  rw [← EReal.coe_add, Ideal.rsqrt_coe, if_neg (not_lt.mpr hpos.le), if_neg hpos.ne']

end OnePassVariance

end
-- ==== Proof.Score.lean ====
/-
  The score of one (sample, output unit) pair, as a function on the extended reals, in the two arrangements the programs
  compute it in, and the law between them.

  A sample's row x of 512 entries is normalised over the row (mean, two-pass variance, inverse square root of the
  variance plus a stabiliser, then an affine map): `rowNorm`. A unit's 8 by 512 table of synapses sends the normalised
  row through a logistic entry by entry: z(m,d) = logistic (sw(m,d) * xn(d) + sb(m,d)): `syn`. The table z is then
  normalised over ALL its 4096 entries with weights dw, db, summed along d, sent through a logistic and summed along m.

  `scoreR` is that text as it stands: the variance is the mean of the squared deviations, and every entry is
  normalised before the sum over d. `scoreK` needs one pass over z: the variance is the mean of the squares minus the
  square of the mean, and the sum over d is taken first,
      sum_d ((z - mu) * r * dw + db) = r * (sum_d z * dw - mu * sum_d dw) + sum_d db.
  Both steps move a factor across a sum and cancel, which fails at an infinite entry, so the law `score_forms` is
  stated for real entries; the logistic of a real is a real in (0,1), the variance is then a nonnegative real, and the
  inverse square root of it plus a positive stabiliser is a real.
-/
import Idealize.ShloMosaic.PureOps.Ideal
import proofs.«161766_j76888504533025_1_alg».proof.Proof.LibOnePassVariance
import proofs.«161766_j76888504533025_1_alg».proof.Proof.Chunks

noncomputable section

namespace Synapse

open Idealize.ShloMosaic

variable (c512 c4096 eps : EReal)

/-- The mean of a row of 512 entries, the count handed in as the programs spell it. -/
def rowMean (x : Fin 512 → EReal) : EReal := Ideal.div (∑ d, x d) c512

/-- The two-pass variance of a row. -/
def rowVar (x : Fin 512 → EReal) : EReal :=
  Ideal.div (∑ d, (x d - rowMean c512 x) * (x d - rowMean c512 x)) c512

/-- A row normalised and sent through the affine map (w, b), entry d. -/
def rowNorm (x w b : Fin 512 → EReal) (d : Fin 512) : EReal :=
  (x d - rowMean c512 x) * Ideal.rsqrt (rowVar c512 x + eps) * w d + b d

/-- A unit's synapse table on a normalised row. -/
def syn (xn : Fin 512 → EReal) (sw sb : Fin 8 → Fin 512 → EReal) (m : Fin 8) (d : Fin 512) : EReal :=
  Ideal.logistic (sw m d * xn d + sb m d)

/-- The mean of all 4096 entries of a table. -/
def tabMean (z : Fin 8 → Fin 512 → EReal) : EReal := Ideal.div (∑ m, ∑ d, z m d) c4096

/-- The variance of a table in one pass: the mean of the squares minus the square of the mean. -/
def varOne (z : Fin 8 → Fin 512 → EReal) : EReal :=
  Ideal.div (∑ m, ∑ d, z m d * z m d) c4096 - tabMean c4096 z * tabMean c4096 z

/-- The variance of a table in two passes: the mean of the squared deviations. -/
def varTwo (z : Fin 8 → Fin 512 → EReal) : EReal :=
  Ideal.div (∑ m, ∑ d, (z m d - tabMean c4096 z) * (z m d - tabMean c4096 z)) c4096

/-- The score with the sum over d taken before the normalisation is applied. -/
def scoreK (z dw db : Fin 8 → Fin 512 → EReal) : EReal :=
  ∑ m, Ideal.logistic (Ideal.rsqrt (varOne c4096 z + eps)
    * ((∑ d, z m d * dw m d) - tabMean c4096 z * ∑ d, dw m d) + ∑ d, db m d)

/-- The score from the five totals one pass over the table leaves: the sum of the entries, of their squares, per row
    the weighted sum, and per row the sums of the two weight tables. -/
def finish (sumz sumsq : EReal) (wsum sdw sdb : Fin 8 → EReal) : EReal :=
  ∑ m, Ideal.logistic (Ideal.rsqrt (Ideal.div sumsq c4096 - Ideal.div sumz c4096 * Ideal.div sumz c4096 + eps)
    * (wsum m - Ideal.div sumz c4096 * sdw m) + sdb m)

theorem scoreK_eq_finish (z dw db : Fin 8 → Fin 512 → EReal) :
    scoreK c4096 eps z dw db = finish c4096 eps (∑ m, ∑ d, z m d) (∑ m, ∑ d, z m d * z m d)
      (fun m => ∑ d, z m d * dw m d) (fun m => ∑ d, dw m d) (fun m => ∑ d, db m d) := rfl

/-- The totals taken chunk by chunk of 128 lanes, each running total started from zero, give the same score. -/
theorem finish_chunks (z dw db : Fin 8 → Fin 512 → EReal) :
    finish c4096 eps
      (0 + (∑ m, ∑ k, z m (lane 0 (by norm_num) k)) + (∑ m, ∑ k, z m (lane 128 (by norm_num) k))
        + (∑ m, ∑ k, z m (lane 256 (by norm_num) k)) + (∑ m, ∑ k, z m (lane 384 (by norm_num) k)))
      (0 + (∑ m, ∑ k, z m (lane 0 (by norm_num) k) * z m (lane 0 (by norm_num) k))
        + (∑ m, ∑ k, z m (lane 128 (by norm_num) k) * z m (lane 128 (by norm_num) k))
        + (∑ m, ∑ k, z m (lane 256 (by norm_num) k) * z m (lane 256 (by norm_num) k))
        + (∑ m, ∑ k, z m (lane 384 (by norm_num) k) * z m (lane 384 (by norm_num) k)))
      (fun m => 0 + (∑ k, z m (lane 0 (by norm_num) k) * dw m (lane 0 (by norm_num) k))
        + (∑ k, z m (lane 128 (by norm_num) k) * dw m (lane 128 (by norm_num) k))
        + (∑ k, z m (lane 256 (by norm_num) k) * dw m (lane 256 (by norm_num) k))
        + (∑ k, z m (lane 384 (by norm_num) k) * dw m (lane 384 (by norm_num) k)))
      (fun m => ∑ d, dw m d) (fun m => ∑ d, db m d)
      = scoreK c4096 eps z dw db := by
  rw [scoreK_eq_finish, sum_table_lanes (fun m d => z m d), sum_table_lanes (fun m d => z m d * z m d),
    show (fun m => 0 + (∑ k, z m (lane 0 (by norm_num) k) * dw m (lane 0 (by norm_num) k))
        + (∑ k, z m (lane 128 (by norm_num) k) * dw m (lane 128 (by norm_num) k))
        + (∑ k, z m (lane 256 (by norm_num) k) * dw m (lane 256 (by norm_num) k))
        + (∑ k, z m (lane 384 (by norm_num) k) * dw m (lane 384 (by norm_num) k)))
      = fun m => ∑ d, z m d * dw m d from funext fun m => sum_row_lanes (fun d => z m d * dw m d)]

/-- The score with every entry normalised first. -/
def scoreR (z dw db : Fin 8 → Fin 512 → EReal) : EReal :=
  ∑ m, Ideal.logistic (∑ d, ((z m d - tabMean c4096 z) * Ideal.rsqrt (varTwo c4096 z + eps) * dw m d + db m d))

/-! ## Real entries -/

/-- A table as a family over pairs. -/
def pairs (z : Fin 8 → Fin 512 → ℝ) : Fin 8 × Fin 512 → ℝ := fun i => z i.1 i.2

/-- A double sum over a table is the sum over the pairs. -/
theorem sum_pairs {M : Type*} [AddCommMonoid M] (f : Fin 8 → Fin 512 → M) :
    ∑ m, ∑ d, f m d = ∑ i : Fin 8 × Fin 512, f i.1 i.2 :=
  (Fintype.sum_prod_type (fun i : Fin 8 × Fin 512 => f i.1 i.2)).symm

theorem card_pairs : (Fintype.card (Fin 8 × Fin 512) : ℝ) = 4096 := by
  rw [Fintype.card_prod, Fintype.card_fin, Fintype.card_fin]; norm_num

theorem tabMean_real (z : Fin 8 → Fin 512 → ℝ) :
    tabMean ((4096 : ℝ) : EReal) (fun m d => ((z m d : ℝ) : EReal))
      = ((OnePassVariance.mean (pairs z) 4096 : ℝ) : EReal) := by
  unfold tabMean
  rw [sum_pairs (fun m d => ((z m d : ℝ) : EReal))]
  exact OnePassVariance.div_sum (pairs z) 4096 (by norm_num)

theorem varOne_real (z : Fin 8 → Fin 512 → ℝ) :
    varOne ((4096 : ℝ) : EReal) (fun m d => ((z m d : ℝ) : EReal))
      = ((OnePassVariance.var (pairs z) 4096 : ℝ) : EReal) := by
  unfold varOne tabMean
  rw [sum_pairs (fun m d => ((z m d : ℝ) : EReal) * ((z m d : ℝ) : EReal)),
    sum_pairs (fun m d => ((z m d : ℝ) : EReal))]
  exact OnePassVariance.onePass (pairs z) 4096 card_pairs (by norm_num)

theorem varTwo_real (z : Fin 8 → Fin 512 → ℝ) :
    varTwo ((4096 : ℝ) : EReal) (fun m d => ((z m d : ℝ) : EReal))
      = ((OnePassVariance.var (pairs z) 4096 : ℝ) : EReal) := by
  unfold varTwo tabMean
  rw [sum_pairs (fun m d => ((z m d : ℝ) : EReal)),
    sum_pairs (fun m d => (((z m d : ℝ) : EReal) - Ideal.div (∑ i : Fin 8 × Fin 512, ((z i.1 i.2 : ℝ) : EReal)) ((4096 : ℝ) : EReal))
      * (((z m d : ℝ) : EReal) - Ideal.div (∑ i : Fin 8 × Fin 512, ((z i.1 i.2 : ℝ) : EReal)) ((4096 : ℝ) : EReal)))]
  exact OnePassVariance.twoPass (pairs z) 4096 (by norm_num)

/-- THE LAW: for real entries and a positive real stabiliser the two arrangements of the score agree. -/
theorem score_forms (z dw db : Fin 8 → Fin 512 → ℝ) (e : ℝ) (he : 0 < e) :
    scoreK ((4096 : ℝ) : EReal) ((e : ℝ) : EReal) (fun m d => ((z m d : ℝ) : EReal)) (fun m d => ((dw m d : ℝ) : EReal))
        (fun m d => ((db m d : ℝ) : EReal))
      = scoreR ((4096 : ℝ) : EReal) ((e : ℝ) : EReal) (fun m d => ((z m d : ℝ) : EReal)) (fun m d => ((dw m d : ℝ) : EReal))
        (fun m d => ((db m d : ℝ) : EReal)) := by
  unfold scoreK scoreR
  rw [varOne_real, varTwo_real, tabMean_real,
    OnePassVariance.rsqrt_real _ e (OnePassVariance.var_nonneg _ _ (by norm_num)) he]
  refine Finset.sum_congr rfl fun m _ => congrArg Ideal.logistic ?_
  simp only [← EReal.coe_mul, ← EReal.coe_sub, ← EReal.coe_add, ← OnePassVariance.coe_sum]
  refine congrArg _ ?_
  have hR : ∀ d, (z m d - OnePassVariance.mean (pairs z) 4096) * (Real.sqrt (OnePassVariance.var (pairs z) 4096 + e))⁻¹ * dw m d
      = (Real.sqrt (OnePassVariance.var (pairs z) 4096 + e))⁻¹ * (z m d * dw m d)
        - (Real.sqrt (OnePassVariance.var (pairs z) 4096 + e))⁻¹ * OnePassVariance.mean (pairs z) 4096 * dw m d :=
    fun d => by ring
  simp only [hR, Finset.sum_add_distrib, Finset.sum_sub_distrib, ← Finset.mul_sum]
  ring

/-- A normalised row of real entries, with real weights and a positive real stabiliser, is a row of reals. -/
theorem rowNorm_real (x w b : Fin 512 → ℝ) (e : ℝ) (he : 0 < e) :
    ∃ xn : Fin 512 → ℝ, ∀ d, rowNorm ((512 : ℝ) : EReal) ((e : ℝ) : EReal) (fun d => ((x d : ℝ) : EReal))
      (fun d => ((w d : ℝ) : EReal)) (fun d => ((b d : ℝ) : EReal)) d = ((xn d : ℝ) : EReal) := by
  refine ⟨fun d => (x d - OnePassVariance.mean x 512) * (Real.sqrt (OnePassVariance.var x 512 + e))⁻¹ * w d + b d, fun d => ?_⟩
  have hm : rowMean ((512 : ℝ) : EReal) (fun d => ((x d : ℝ) : EReal)) = ((OnePassVariance.mean x 512 : ℝ) : EReal) :=
    OnePassVariance.div_sum x 512 (by norm_num)
  have hv : rowVar ((512 : ℝ) : EReal) (fun d => ((x d : ℝ) : EReal)) = ((OnePassVariance.var x 512 : ℝ) : EReal) := by
    unfold rowVar rowMean
    exact OnePassVariance.twoPass x 512 (by norm_num)
  unfold rowNorm
  rw [hv, hm, OnePassVariance.rsqrt_real _ e (OnePassVariance.var_nonneg _ _ (by norm_num)) he]
  simp only [← EReal.coe_mul, ← EReal.coe_sub, ← EReal.coe_add]

/-- A synapse table of real entries on a real row is a table of reals. -/
theorem syn_real (xn : Fin 512 → ℝ) (sw sb : Fin 8 → Fin 512 → ℝ) (m : Fin 8) (d : Fin 512) :
    syn (fun d => ((xn d : ℝ) : EReal)) (fun m d => ((sw m d : ℝ) : EReal)) (fun m d => ((sb m d : ℝ) : EReal)) m d
      = (((1 + Real.exp (-(sw m d * xn d + sb m d)))⁻¹ : ℝ) : EReal) := by
  unfold syn
  rw [← EReal.coe_mul, ← EReal.coe_add, Ideal.logistic_coe]

end Synapse

end
-- ==== Proof.Consts.lean ====
/-
  The float constants the two programs spell, as the extended reals their bit patterns denote: the zero, the one of the
  logistic's quotient, the two counts 512 and 4096 the means divide by, and the stabiliser added to each variance, which
  is only needed as SOME positive real.
-/
import Idealize.ShloMosaic.PureOps.Ideal

noncomputable section

namespace Cert.Consts

open Idealize.ShloMosaic

/-- The count of a row, the count of a table and the stabiliser, as the programs spell them. -/
abbrev C512 : EReal := Ideal.ofBits .f32 0x44000000#32
abbrev C4096 : EReal := Ideal.ofBits .f32 0x45800000#32
abbrev EPS : EReal := Ideal.ofBits .f32 0x3727C5AC#32

/-- `0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `512.0`, the length of a row, denotes the real `512`. -/
theorem ofBits_512 : Ideal.ofBits .f32 0x44000000#32 = ((512 : ℝ) : EReal) := by
  simp [Ideal.ofBits, Ideal.ieee, -EReal.coe_mul]; norm_num

/-- `4096.0`, the number of entries of an 8 by 512 table, denotes the real `4096`. -/
theorem ofBits_4096 : Ideal.ofBits .f32 0x45800000#32 = ((4096 : ℝ) : EReal) := by
  simp [Ideal.ofBits, Ideal.ieee, -EReal.coe_mul]; norm_num

/-- The stabiliser's pattern denotes a positive real. -/
theorem ofBits_eps : ∃ e : ℝ, 0 < e ∧ Ideal.ofBits .f32 0x3727C5AC#32 = ((e : ℝ) : EReal) := by
  refine ⟨_, ?_, by simp [Ideal.ofBits, Ideal.ieee, -EReal.coe_mul]; rfl⟩
  positivity

end Cert.Consts

end
-- ==== Proof.Body.lean ====
/-
  The kernel body's arithmetic read at coordinates: for sample p and unit q of a block, the number the body stores is the
  one-pass score of the unit's synapse table on the sample's normalised row.

  The body walks the 512 lanes in four chunks of 128. For a chunk starting at lane `off` it forms, for every sample p,
  unit q, table row m and lane k, the synapse value logistic (sw(q,m,off+k) * xn(p,off+k) + sb(q,m,off+k)) (`Zc`), and adds
  the chunk's sum, its sum of squares and, per row m, its sum weighted by dw(m,off+k) to three running totals started
  from zero. The last lines turn the totals into the score (`Synapse.finish`). Each lemma below reads one named stage of
  the body at coordinates; `body_apply` chains them and regroups the four chunks into sums over all 512 lanes.
-/
import proofs.«161766_j76888504533025_1_alg».proof.Proof.Gen.KernelIdeal.Frame
import proofs.«161766_j76888504533025_1_alg».proof.Proof.Layout
import proofs.«161766_j76888504533025_1_alg».proof.Proof.Score
import proofs.«161766_j76888504533025_1_alg».proof.Proof.Consts

noncomputable section

namespace Cert.KernelIdeal.Body

open Idealize.ShloMosaic Idealize.ShloMosaic.ValueIdx Cert.KernelIdeal Cert.KernelIdeal.Gen Cert.KernelIdeal.Layout Synapse Cert.Consts

theorem rsqrt_apply {s : Shape} (a : FVec Ideal s .f32) (i : s.Idx) : rsqrt a i = Ideal.rsqrt (a i) := rfl
theorem logistic_apply {s : Shape} (a : FVec Ideal s .f32) (i : s.Idx) : logistic a i = Ideal.logistic (a i) := rfl
theorem scalar_ofBits (b : BitVec 32) : (Scalar.ofBits (F := Ideal) .f32 b) = Ideal.ofBits .f32 b := rfl

/-- The synapse value of sample p, unit q, row m at lane k of the chunk starting at lane `off`. -/
abbrev Zc (off : Nat) (hoff : off + 128 ≤ 512) (xn : FVec Ideal S8x512 .f32) (a b : Vec Ideal S128x8x128 .f32)
    (p : Fin 8) (q : Fin 128) (m : Fin 8) (k : Fin 128) : EReal :=
  Ideal.logistic (a (ix3 q m k) * xn (ix2 p (lane off hoff k)) + b (ix3 q m k))

/-! ## The first lines: the rows normalised, the weight tables' row sums, the zeros -/

theorem weightSum_apply (v27 : Vec Ideal S8x512 .f32) (m : Fin 8) :
    k0_pay3 (F := Ideal) v27 (ix1 m) = ∑ d : Fin 512, v27 (ix2 m d) := by
  unfold k0_pay3
  rw [rowTotals_eq, rowTotals_apply]

theorem shiftSum_apply (v28 : Vec Ideal S8x512 .f32) (m : Fin 8) :
    k0_pay4 (F := Ideal) v28 (ix1 m) = ∑ d : Fin 512, v28 (ix2 m d) := by
  unfold k0_pay4
  rw [rowTotals_eq, rowTotals_apply]

theorem norm_apply (v0 : Vec Ideal S8x512 .f32) (v19 v23 : Vec Ideal S1x512 .f32) (p : Fin 8) (d : Fin 512) :
    k0_pay2 (F := Ideal) v0 v19 v23 (ix2 p d)
      = rowNorm C512 EPS (fun d => v0 (ix2 p d)) (fun d => v19 (ix2 (0 : Fin 1) d)) (fun d => v23 (ix2 (0 : Fin 1) d)) d := by
  unfold k0_pay2 rowNorm rowVar rowMean
  repeat rw [rowTotals_eq]
  simp only [addf_apply, mulf_apply, subf_apply, divf_apply, rsqrt_apply, col_spread, col_cast, row_spread, rowTotals_apply,
    broadcast_apply, scalar_ofBits]

theorem zero5_apply (i : S8x128.Idx) : k0_pay5 (F := Ideal) i = Ideal.ofBits .f32 0x00000000#32 := rfl
theorem zero6_apply (i : S8x128.Idx) : k0_pay6 (F := Ideal) i = Ideal.ofBits .f32 0x00000000#32 := rfl
theorem zero7_apply (i : S8x128x8.Idx) : k0_pay7 (F := Ideal) i = Ideal.ofBits .f32 0x00000000#32 := rfl

/-! ## One chunk's synapse values -/

theorem syn_chunk (off : Nat) (hoff : off + 128 ≤ 512) (v26 : FVec Ideal S8x512 .f32) (a b : Vec Ideal S128x8x128 .f32)
    (hs : S8x512.Slices ![0, off] S8x128) (hc : S128x8x128.ShapeCasts S1x128x8x128) (hc' : S8x128.ShapeCasts S8x1x1x128)
    (hb : S1x128x8x128.Broadcasts S8x128x8x128) (hb' : S8x1x1x128.Broadcasts S8x128x8x128)
    (p : Fin 8) (q : Fin 128) (m : Fin 8) (k : Fin 128) :
    logistic (addf (mulf (broadcastTo S8x128x8x128 (shapeCast S1x128x8x128 a hc) hb)
        (broadcastTo S8x128x8x128 (shapeCast S8x1x1x128 (extractStridedSlice S8x128 ![0, off] v26 hs) hc') hb'))
        (broadcastTo S8x128x8x128 (shapeCast S1x128x8x128 b hc) hb)) (ix4 p q m k)
      = Zc off hoff v26 a b p q m k := by
  rw [logistic_apply, addf_apply, mulf_apply, table_spread, table_spread, rows_spread, chunk_rows off hoff]

theorem syn0_apply (v26 : FVec Ideal S8x512 .f32) (v34 v35 : Vec Ideal S128x8x128 .f32)
    (p : Fin 8) (q : Fin 128) (m : Fin 8) (k : Fin 128) :
    k0_pay8 (F := Ideal) v26 v34 v35 (ix4 p q m k) = Zc 0 (by norm_num) v26 v34 v35 p q m k := by
  unfold k0_pay8
  exact syn_chunk 0 _ v26 v34 v35 _ _ _ _ _ p q m k

theorem syn1_apply (v26 : FVec Ideal S8x512 .f32) (v59 v60 : Vec Ideal S128x8x128 .f32)
    (p : Fin 8) (q : Fin 128) (m : Fin 8) (k : Fin 128) :
    k0_pay12 (F := Ideal) v26 v59 v60 (ix4 p q m k) = Zc 128 (by norm_num) v26 v59 v60 p q m k := by
  unfold k0_pay12
  exact syn_chunk 128 _ v26 v59 v60 _ _ _ _ _ p q m k

theorem syn2_apply (v26 : FVec Ideal S8x512 .f32) (v84 v85 : Vec Ideal S128x8x128 .f32)
    (p : Fin 8) (q : Fin 128) (m : Fin 8) (k : Fin 128) :
    k0_pay15 (F := Ideal) v26 v84 v85 (ix4 p q m k) = Zc 256 (by norm_num) v26 v84 v85 p q m k := by
  unfold k0_pay15
  exact syn_chunk 256 _ v26 v84 v85 _ _ _ _ _ p q m k

/-- The last chunk's product, before the shift is added. -/
theorem prod3_apply (v26 : FVec Ideal S8x512 .f32) (v109 : Vec Ideal S128x8x128 .f32)
    (p : Fin 8) (q : Fin 128) (m : Fin 8) (k : Fin 128) :
    k0_pay20 (F := Ideal) v26 v109 (ix4 p q m k) = v109 (ix3 q m k) * v26 (ix2 p (lane 384 (by norm_num) k)) := by
  unfold k0_pay20
  rw [mulf_apply, table_spread, rows_spread, chunk_rows 384 (by norm_num)]

theorem shift3_apply (v110 : Vec Ideal S128x8x128 .f32) (u : Fin 1) (q : Fin 128) (m : Fin 8) (k : Fin 128) :
    k0_pay21 (F := Ideal) v110 (ix4 u q m k) = v110 (ix3 q m k) := by
  unfold k0_pay21
  exact shapeCast_abc_1abc_apply v110 _ u q m k

/-! ## The weight table's chunks -/

theorem weights1_apply (v27 : Vec Ideal S8x512 .f32) (m : Fin 8) (k : Fin 128) :
    k0_pay11 (F := Ideal) v27 (ix2 m k) = v27 (ix2 m (lane 128 (by norm_num) k)) := by
  unfold k0_pay11
  exact chunk_rows 128 _ v27 _ m k

theorem weights3_apply (v27 : Vec Ideal S8x512 .f32) (m : Fin 8) (k : Fin 128) :
    k0_pay19 (F := Ideal) v27 (ix2 m k) = v27 (ix2 m (lane 384 (by norm_num) k)) := by
  unfold k0_pay19
  exact chunk_rows 384 _ v27 _ m k

/-! ## The running totals -/

/-- The sum of the entries after two chunks. -/
theorem total01_apply (v26 : FVec Ideal S8x512 .f32) (v31 : FVec Ideal S8x128 .f32) (v34 v35 v59 v60 : Vec Ideal S128x8x128 .f32)
    (p : Fin 8) (q : Fin 128) :
    k0_pay13 (F := Ideal) v26 v31 v34 v35 v59 v60 (ix2 p q)
      = v31 (ix2 p q) + (∑ m, ∑ k, Zc 0 (by norm_num) v26 v34 v35 p q m k)
        + ∑ m, ∑ k, Zc 128 (by norm_num) v26 v59 v60 p q m k := by
  unfold k0_pay13
  repeat rw [laneSums_eq]
  repeat rw [rowSums_eq]
  simp only [addf_apply, rowSums_apply, laneSums_apply, syn0_apply, syn1_apply]

/-- The sum of the entries after three chunks. -/
theorem total2_apply (v26 : FVec Ideal S8x512 .f32) (v74 : FVec Ideal S8x128 .f32) (v84 v85 : Vec Ideal S128x8x128 .f32)
    (p : Fin 8) (q : Fin 128) :
    k0_pay16 (F := Ideal) v26 v74 v84 v85 (ix2 p q)
      = v74 (ix2 p q) + ∑ m, ∑ k, Zc 256 (by norm_num) v26 v84 v85 p q m k := by
  unfold k0_pay16
  repeat rw [laneSums_eq]
  repeat rw [rowSums_eq]
  simp only [addf_apply, rowSums_apply, laneSums_apply, syn2_apply]

/-- The sum of the squares after one chunk. -/
theorem squares0_apply (v26 : FVec Ideal S8x512 .f32) (v32 : FVec Ideal S8x128 .f32) (v34 v35 : Vec Ideal S128x8x128 .f32)
    (p : Fin 8) (q : Fin 128) :
    k0_pay9 (F := Ideal) v26 v32 v34 v35 (ix2 p q)
      = v32 (ix2 p q) + ∑ m, ∑ k, Zc 0 (by norm_num) v26 v34 v35 p q m k * Zc 0 (by norm_num) v26 v34 v35 p q m k := by
  unfold k0_pay9
  repeat rw [laneSums_eq]
  repeat rw [rowSums_eq]
  simp only [addf_apply, mulf_apply, rowSums_apply, laneSums_apply, syn0_apply]

/-- The second chunk's squares summed along the lanes. -/
theorem squares1_apply (v26 : FVec Ideal S8x512 .f32) (v59 v60 : Vec Ideal S128x8x128 .f32)
    (p : Fin 8) (q : Fin 128) (m : Fin 8) :
    k0_pay14 (F := Ideal) v26 v59 v60 (ix3 p q m)
      = ∑ k, Zc 128 (by norm_num) v26 v59 v60 p q m k * Zc 128 (by norm_num) v26 v59 v60 p q m k := by
  unfold k0_pay14
  repeat rw [laneSums_eq]
  simp only [mulf_apply, laneSums_apply, syn1_apply]

/-- The sum of the squares after three chunks. -/
theorem squares2_apply (v26 : FVec Ideal S8x512 .f32) (v53 : FVec Ideal S8x128 .f32) (v76 : FVec Ideal S8x128x8 .f32)
    (v84 v85 : Vec Ideal S128x8x128 .f32) (p : Fin 8) (q : Fin 128) :
    k0_pay17 (F := Ideal) v26 v53 v76 v84 v85 (ix2 p q)
      = v53 (ix2 p q) + (∑ m, v76 (ix3 p q m))
        + ∑ m, ∑ k, Zc 256 (by norm_num) v26 v84 v85 p q m k * Zc 256 (by norm_num) v26 v84 v85 p q m k := by
  unfold k0_pay17
  repeat rw [laneSums_eq]
  repeat rw [rowSums_eq]
  simp only [addf_apply, mulf_apply, rowSums_apply, laneSums_apply, syn2_apply]

/-- The weighted sum after one chunk. -/
theorem weighted0_apply (v26 : FVec Ideal S8x512 .f32) (v27 : Vec Ideal S8x512 .f32) (v33 : FVec Ideal S8x128x8 .f32)
    (v34 v35 : Vec Ideal S128x8x128 .f32) (p : Fin 8) (q : Fin 128) (m : Fin 8) :
    k0_pay10 (F := Ideal) v26 v27 v33 v34 v35 (ix3 p q m)
      = v33 (ix3 p q m) + ∑ k, Zc 0 (by norm_num) v26 v34 v35 p q m k * v27 (ix2 m (lane 0 (by norm_num) k)) := by
  unfold k0_pay10
  repeat rw [laneSums_eq]
  simp only [addf_apply, mulf_apply, laneSums_apply, syn0_apply, weights_spread, chunk_rows 0 (by norm_num)]

/-- The weighted sum after three chunks. -/
theorem weighted2_apply (v26 : FVec Ideal S8x512 .f32) (v27 : Vec Ideal S8x512 .f32) (v58 : FVec Ideal S8x128x8 .f32)
    (v62 : FVec Ideal S8x128 .f32) (v71 : FVec Ideal S8x128x8x128 .f32) (v84 v85 : Vec Ideal S128x8x128 .f32)
    (p : Fin 8) (q : Fin 128) (m : Fin 8) :
    k0_pay18 (F := Ideal) v26 v27 v58 v62 v71 v84 v85 (ix3 p q m)
      = v58 (ix3 p q m) + (∑ k, v71 (ix4 p q m k) * v62 (ix2 m k))
        + ∑ k, Zc 256 (by norm_num) v26 v84 v85 p q m k * v27 (ix2 m (lane 256 (by norm_num) k)) := by
  unfold k0_pay18
  repeat rw [laneSums_eq]
  simp only [addf_apply, mulf_apply, laneSums_apply, syn2_apply, weights_spread, chunk_rows 256 (by norm_num)]

/-! ## The last lines: the fourth chunk and the score -/

theorem finish_apply (v29 v30 : FVec Ideal S8 .f32) (v99 v103 : FVec Ideal S8x128 .f32) (v108 : FVec Ideal S8x128x8 .f32)
    (v112 : FVec Ideal S8x128 .f32) (v117 : FVec Ideal S8x128x8x128 .f32) (v118 : FVec Ideal S1x128x8x128 .f32)
    (p : Fin 8) (q : Fin 128) :
    k0_pay1 (F := Ideal) v29 v30 v99 v103 v108 v112 v117 v118 (ix2 p q)
      = finish C4096 EPS
          (v99 (ix2 p q) + ∑ m, ∑ k, Ideal.logistic (v117 (ix4 p q m k) + v118 (ix4 (0 : Fin 1) q m k)))
          (v103 (ix2 p q) + ∑ m, ∑ k, Ideal.logistic (v117 (ix4 p q m k) + v118 (ix4 (0 : Fin 1) q m k))
            * Ideal.logistic (v117 (ix4 p q m k) + v118 (ix4 (0 : Fin 1) q m k)))
          (fun m => v108 (ix3 p q m) + ∑ k, Ideal.logistic (v117 (ix4 p q m k) + v118 (ix4 (0 : Fin 1) q m k)) * v112 (ix2 m k))
          (fun m => v29 (ix1 m)) (fun m => v30 (ix1 m)) := by
  unfold k0_pay1 finish
  repeat rw [laneSums_eq]
  repeat rw [rowSums_eq]
  simp only [addf_apply, mulf_apply, subf_apply, divf_apply, rsqrt_apply, logistic_apply, rowSums_apply, laneSums_apply,
    pair_spread, perRow_spread, weights_spread, samples_spread, broadcast_apply, scalar_ofBits]

/-! ## The loads of the tables' chunks -/

theorem load0_eq (x : Vec Ideal S128x8x512 .f32) : View.ld x r0_2 = tableChunk 0 (by norm_num) x := load_chunk 0 _ x _
theorem load1_eq (x : Vec Ideal S128x8x512 .f32) : View.ld x r0_3 = tableChunk 128 (by norm_num) x := load_chunk 128 _ x _
theorem load2_eq (x : Vec Ideal S128x8x512 .f32) : View.ld x r0_4 = tableChunk 256 (by norm_num) x := load_chunk 256 _ x _
theorem load3_eq (x : Vec Ideal S128x8x512 .f32) : View.ld x r0_5 = tableChunk 384 (by norm_num) x := load_chunk 384 _ x _

/-! ## The block -/

/-- What the body stores for sample p and unit q of a block: the one-pass score of the unit's synapse table on the
    sample's normalised row, all read off the windows' blocks. -/
theorem body_apply (x0 : Vec Ideal S8x512 .f32) (x1 x2 : Vec Ideal S1x512 .f32) (x3 x4 : Vec Ideal S128x8x512 .f32)
    (x5 x6 : Vec Ideal S8x512 .f32) (p : Fin 8) (q : Fin 128) :
    out0_7 (F := Ideal) x0 x1 x2 x3 x4 x5 x6 (ix2 p q)
      = scoreK C4096 EPS
          (syn (rowNorm C512 EPS (fun d => x0 (ix2 p d)) (fun d => x1 (ix2 (0 : Fin 1) d)) (fun d => x2 (ix2 (0 : Fin 1) d)))
            (fun m d => x3 (ix3 q m d)) (fun m d => x4 (ix3 q m d)))
          (fun m d => x5 (ix2 m d)) (fun m d => x6 (ix2 m d)) := by
  have hz : (![0, 0] : Fin 2 → Nat) = fun _ => 0 := by funext a; fin_cases a <;> rfl
  rw [← finish_chunks]
  unfold out0_7
  rw [View.canon_unit_zero hz]
  simp only [View.ld_unit_zero (S := S8x512) hz, View.ld_unit_zero (S := S1x512) hz]
  rw [load0_eq x3, load0_eq x4, load1_eq x3, load1_eq x4, load2_eq x3, load2_eq x4, load3_eq x3, load3_eq x4, finish_apply]
  simp only [total2_apply, total01_apply, squares2_apply, squares0_apply, squares1_apply, weighted2_apply, weighted0_apply,
    weights1_apply, weights3_apply, syn1_apply, prod3_apply, shift3_apply, zero5_apply, zero6_apply, zero7_apply,
    weightSum_apply, shiftSum_apply, norm_apply, Zc, syn, tableChunk_apply,
    Consts.ofBits_zero]

end Cert.KernelIdeal.Body

end
-- ==== Proof.Table.lean ====
/-
  The table of scores of the whole arrays, before the softmax: entry (b, o) is the one-pass score of unit o's synapse
  table on sample b's normalised row. For arrays of real entries it is also the two-pass score (`scoreAt_two_pass`): the
  stabiliser's pattern denotes a positive real and the two counts denote 512 and 4096, the numbers of entries the means
  are taken over, which is what the one-pass variance needs.

  `softmaxRows` is the softmax along each row of a [64, 256] table as both programs spell it on the host: the row's
  maximum (floored at -inf) subtracted, the exponential, divided by the row's sum of exponentials.
-/
import proofs.«161766_j76888504533025_1_alg».proof.Proof.Score
import proofs.«161766_j76888504533025_1_alg».proof.Proof.Consts
import Idealize.ShloMosaic.Lib.ValueIdx
import Idealize.ShloMosaic.PureOps.Vector

noncomputable section

namespace Synapse

open Idealize.ShloMosaic Idealize.ShloMosaic.ValueIdx Cert.Consts

abbrev T64x512 : Shape := ⟨2, ![64, 512]⟩
abbrev T512 : Shape := ⟨1, ![512]⟩
abbrev T256x8x512 : Shape := ⟨3, ![256, 8, 512]⟩
abbrev T8x512 : Shape := ⟨2, ![8, 512]⟩
abbrev T64x256 : Shape := ⟨2, ![64, 256]⟩
abbrev T64x1 : Shape := ⟨2, ![64, 1]⟩
abbrev T64 : Shape := ⟨1, ![64]⟩
abbrev T_ : Shape := ⟨0, ![]⟩

/-- The score of sample b and unit o. -/
def scoreAt (X : T64x512.Idx → EReal) (W1 B1 : T512.Idx → EReal) (SW SB : T256x8x512.Idx → EReal)
    (DW DB : T8x512.Idx → EReal) (b : Fin 64) (o : Fin 256) : EReal :=
  scoreK C4096 EPS
    (syn (rowNorm C512 EPS (fun d => X (ix2 b d)) (fun d => W1 (ix1 d)) (fun d => B1 (ix1 d)))
      (fun m d => SW (ix3 o m d)) (fun m d => SB (ix3 o m d)))
    (fun m d => DW (ix2 m d)) (fun m d => DB (ix2 m d))

/-- The table of scores. -/
def scores (X : T64x512.Idx → EReal) (W1 B1 : T512.Idx → EReal) (SW SB : T256x8x512.Idx → EReal)
    (DW DB : T8x512.Idx → EReal) : T64x256.Idx → EReal :=
  fun j => scoreAt X W1 B1 SW SB DW DB (j 0) (j 1)

theorem scores_apply (X : T64x512.Idx → EReal) (W1 B1 : T512.Idx → EReal) (SW SB : T256x8x512.Idx → EReal)
    (DW DB : T8x512.Idx → EReal) (b : Fin 64) (o : Fin 256) :
    scores X W1 B1 SW SB DW DB (ix2 b o) = scoreAt X W1 B1 SW SB DW DB b o := rfl

/-- For arrays of real entries the one-pass score is the two-pass score. -/
theorem scoreAt_two_pass (X : T64x512.Idx → EReal) (W1 B1 : T512.Idx → EReal) (SW SB : T256x8x512.Idx → EReal)
    (DW DB : T8x512.Idx → EReal)
    (hX : ∀ i, ∃ r : ℝ, X i = (r : EReal)) (hW1 : ∀ i, ∃ r : ℝ, W1 i = (r : EReal)) (hB1 : ∀ i, ∃ r : ℝ, B1 i = (r : EReal))
    (hSW : ∀ i, ∃ r : ℝ, SW i = (r : EReal)) (hSB : ∀ i, ∃ r : ℝ, SB i = (r : EReal))
    (hDW : ∀ i, ∃ r : ℝ, DW i = (r : EReal)) (hDB : ∀ i, ∃ r : ℝ, DB i = (r : EReal)) (b : Fin 64) (o : Fin 256) :
    scoreAt X W1 B1 SW SB DW DB b o
      = scoreR C4096 EPS
          (syn (rowNorm C512 EPS (fun d => X (ix2 b d)) (fun d => W1 (ix1 d)) (fun d => B1 (ix1 d)))
            (fun m d => SW (ix3 o m d)) (fun m d => SB (ix3 o m d)))
          (fun m d => DW (ix2 m d)) (fun m d => DB (ix2 m d)) := by
  choose x hx using hX
  choose w1 hw1 using hW1
  choose b1 hb1 using hB1
  choose sw hsw using hSW
  choose sb hsb using hSB
  choose dw hdw using hDW
  choose db hdb using hDB
  obtain ⟨e, he, heps⟩ := Cert.Consts.ofBits_eps
  unfold scoreAt
  rw [show C512 = ((512 : ℝ) : EReal) from Cert.Consts.ofBits_512,
    show C4096 = ((4096 : ℝ) : EReal) from Cert.Consts.ofBits_4096, show EPS = ((e : ℝ) : EReal) from heps]
  simp only [hx, hw1, hb1, hsw, hsb, hdw, hdb]
  obtain ⟨xn, hxn⟩ := rowNorm_real (fun d => x (ix2 b d)) (fun d => w1 (ix1 d)) (fun d => b1 (ix1 d)) e he
  have hrow : rowNorm ((512 : ℝ) : EReal) ((e : ℝ) : EReal) (fun d => ((x (ix2 b d) : ℝ) : EReal))
      (fun d => ((w1 (ix1 d) : ℝ) : EReal)) (fun d => ((b1 (ix1 d) : ℝ) : EReal)) = fun d => ((xn d : ℝ) : EReal) :=
    funext hxn
  rw [hrow]
  have hsyn : syn (fun d => ((xn d : ℝ) : EReal)) (fun m d => ((sw (ix3 o m d) : ℝ) : EReal))
      (fun m d => ((sb (ix3 o m d) : ℝ) : EReal))
        = fun m d => (((1 + Real.exp (-(sw (ix3 o m d) * xn d + sb (ix3 o m d))))⁻¹ : ℝ) : EReal) :=
    funext fun m => funext fun d => syn_real xn (fun m d => sw (ix3 o m d)) (fun m d => sb (ix3 o m d)) m d
  rw [hsyn]
  exact score_forms (fun m d => (1 + Real.exp (-(sw (ix3 o m d) * xn d + sb (ix3 o m d))))⁻¹)
    (fun m d => dw (ix2 m d)) (fun m d => db (ix2 m d)) e he

/-! ## The softmax along the rows -/

variable {F : FTy → Type} [FloatOps F]

/-- The softmax of each row of a [64, 256] table, as the host computes it. -/
def softmaxRows (hr : T64x256.ReducesTo [1] T64) (h0 : 0 < T_.numel)
    (b0 : T_.BroadcastsInDim T64 (![] : Fin 0 → Fin T64.rank))
    (b1 : T64.BroadcastsInDim T64x1 (![0] : Fin 1 → Fin T64x1.rank))
    (b2 : T64x1.BroadcastsInDim T64x256 (![0, 1] : Fin 2 → Fin T64x256.rank))
    (s : FVec F T64x256 .f32) : FVec F T64x256 .f32 :=
  Host.divf
    (Host.exp (subf s (broadcastInDim T64x256 ![0, 1] b2 (broadcastInDim T64x1 ![0] b1
      (maximumf (broadcastInDim T64 ![] b0 (constant T_ .f32 0xFF800000#32))
        (Host.reduce FloatOps.maximumf s (constant T_ .f32 0xFF800000#32) hr h0))))))
    (broadcastInDim T64x256 ![0, 1] b2 (broadcastInDim T64x1 ![0] b1
      (Host.reduceAdd
        (Host.exp (subf s (broadcastInDim T64x256 ![0, 1] b2 (broadcastInDim T64x1 ![0] b1
          (maximumf (broadcastInDim T64 ![] b0 (constant T_ .f32 0xFF800000#32))
            (Host.reduce FloatOps.maximumf s (constant T_ .f32 0xFF800000#32) hr h0))))))
        (constant T_ .f32 0x00000000#32) hr h0)))

end Synapse

end
-- ==== Proof.Blocks.lean ====
/-
  From blocks to the array, and through the host's softmax: what the kernel's run leaves in its result.

  Grid point t works on the block of 8 samples and 128 units whose block indices are the output window's at t: the
  samples' rows come from the window on x at the same sample block, the units' tables from the windows on sw and sb at
  the same unit block, the two weight tables and the two rows of the first normalisation whole (the rows through a
  reshape [512] -> [1, 512] done on the host before the call). So what point t writes back is block t of ONE table, the
  table of scores of the whole arrays (`flushed_eq`); the 16 blocks cover the [64, 256] result (`cover`), which therefore
  ends holding that table (`final`); the host lines after the call apply the row softmax to it (`tail_eq`).
-/
import proofs.«161766_j76888504533025_1_alg».proof.Proof.Gen.KernelIdeal.Frame
import proofs.«161766_j76888504533025_1_alg».proof.Proof.Body
import proofs.«161766_j76888504533025_1_alg».proof.Proof.Table
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Blocks

open Idealize.ShloMosaic.ValueIdx Cert.KernelIdeal Cert.KernelIdeal.Gen Synapse Cert.Consts

variable (m : (ℓ : Loc nD τ sig) → Buf (Elt Ideal) ℓ) (ρ : Dev nD → PrngReg)

/-- The table of scores of core c's argument arrays. -/
abbrev table (c : Dev nD) : S64x256.Idx → EReal :=
  scores ((m ((c.tc : Thread nD τ).loc main_arg0)) : S64x512.Idx → EReal) ((m ((c.tc : Thread nD τ).loc main_arg1)) : S512.Idx → EReal)
    ((m ((c.tc : Thread nD τ).loc main_arg2)) : S512.Idx → EReal) ((m ((c.tc : Thread nD τ).loc main_arg3)) : S256x8x512.Idx → EReal)
    ((m ((c.tc : Thread nD τ).loc main_arg4)) : S256x8x512.Idx → EReal) ((m ((c.tc : Thread nD τ).loc main_arg5)) : S8x512.Idx → EReal)
    ((m ((c.tc : Thread nD τ).loc main_arg6)) : S8x512.Idx → EReal)

/-! ## The two rows reshaped on the host before the call -/

theorem V_row1 (c : Dev nD) :
    (V m c main_v0 : S1x512.Idx → EReal) = shapeCast S1x512 ((m ((c.tc : Thread nD τ).loc main_arg1)) : S512.Idx → EReal) shapeCasts_S512_S1x512 := by
  show StableHlo.after hostOps0 (fun b => m (c, b)) (Proc.devRef .tc main_v0) = _
  after_results
  rfl

theorem V_row2 (c : Dev nD) :
    (V m c main_v1 : S1x512.Idx → EReal) = shapeCast S1x512 ((m ((c.tc : Thread nD τ).loc main_arg2)) : S512.Idx → EReal) shapeCasts_S512_S1x512 := by
  show StableHlo.after hostOps0 (fun b => m (c, b)) (Proc.devRef .tc main_v1) = _
  after_results
  rfl

/-! ## The windows' blocks as parts of the arrays -/

/-- The printed index maps over the grid: the window on x moves with the output's sample block, the windows on sw and sb
    with its unit block, the others stay; the output's block indices range over 8 by 2. -/
theorem idx_facts : ∀ t : Fin cfg0.N,
    win0_0.index t (0 : Fin 2) = win0_7.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = win0_7.index t (1 : Fin 2) ∧ win0_3.index t (1 : Fin 3) = 0 ∧ win0_3.index t (2 : Fin 3) = 0
    ∧ win0_4.index t (0 : Fin 3) = win0_7.index t (1 : Fin 2) ∧ win0_4.index t (1 : Fin 3) = 0 ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 7 ∧ win0_7.index t (1 : Fin 2) ≤ 1 :=
  (by decide +kernel : ∀ t : Fin grid0.N, _)

/-- Every block of the result is some point's. -/
theorem idx_onto : ∀ (q0 : Fin 8) (q1 : Fin 2), ∃ t : Fin cfg0.N, win0_7.index t = ![q0.val, q1.val] :=
  (by decide +kernel : ∀ (q0 : Fin 8) (q1 : Fin 2), ∃ t : Fin grid0.N, win0_7.index t = ![q0.val, q1.val])

theorem block0_apply (c : Dev nD) (t : Fin cfg0.N) (p : Fin 8) (d : Fin 512) (bb : Fin 64)
    (hb : bb.val = win0_7.index t (0 : Fin 2) * 8 + p.val) :
    (iblk m c 0 t : Vec Ideal S8x512 .f32) (ix2 p d) = ((m ((c.tc : Thread nD τ).loc main_arg0)) : S64x512.Idx → EReal) (ix2 bb d) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 8 + 1 * p.val = bb.val; rw [hb, e0]; omega
  | ⟨1, _⟩ => show win0_0.index t (1 : Fin 2) * 512 + 1 * d.val = d.val; rw [e1]; omega

theorem block1_apply (c : Dev nD) (t : Fin cfg0.N) (z : Fin 1) (d : Fin 512) :
    (iblk m c 1 t : Vec Ideal S1x512 .f32) (ix2 z d) = ((m ((c.tc : Thread nD τ).loc main_arg1)) : S512.Idx → EReal) (ix1 d) := by
  obtain ⟨-, -, e0, e1, -⟩ := idx_facts t
  have hz : z.val = 0 := by omega
  unfold iblk
  rw [View.read_apply]
  show V m c main_v0 _ = _
  rw [V_row1]
  refine shapeCast_apply _ _ _ (ix1 d) ?_
  rw [Shape.rowMajor_val_one, Shape.rowMajor_val_two]
  show d.val = (win0_1.index t (0 : Fin 2) * 1 + 1 * z.val) * 512 + (win0_1.index t (1 : Fin 2) * 512 + 1 * d.val)
  rw [e0, e1, hz]; omega

theorem block2_apply (c : Dev nD) (t : Fin cfg0.N) (z : Fin 1) (d : Fin 512) :
    (iblk m c 2 t : Vec Ideal S1x512 .f32) (ix2 z d) = ((m ((c.tc : Thread nD τ).loc main_arg2)) : S512.Idx → EReal) (ix1 d) := by
  obtain ⟨-, -, -, -, e0, e1, -⟩ := idx_facts t
  have hz : z.val = 0 := by omega
  unfold iblk
  rw [View.read_apply]
  show V m c main_v1 _ = _
  rw [V_row2]
  refine shapeCast_apply _ _ _ (ix1 d) ?_
  rw [Shape.rowMajor_val_one, Shape.rowMajor_val_two]
  show d.val = (win0_2.index t (0 : Fin 2) * 1 + 1 * z.val) * 512 + (win0_2.index t (1 : Fin 2) * 512 + 1 * d.val)
  rw [e0, e1, hz]; omega

theorem block3_apply (c : Dev nD) (t : Fin cfg0.N) (q : Fin 128) (r : Fin 8) (d : Fin 512) (oo : Fin 256)
    (ho : oo.val = win0_7.index t (1 : Fin 2) * 128 + q.val) :
    (iblk m c 3 t : Vec Ideal S128x8x512 .f32) (ix3 q r d) = ((m ((c.tc : Thread nD τ).loc main_arg3)) : S256x8x512.Idx → EReal) (ix3 oo r d) := by
  obtain ⟨-, -, -, -, -, -, e0, e1, e2, -⟩ := idx_facts t
  unfold iblk
  rw [View.read_apply]
  show V m c main_arg3 _ = _
  rw [V_main_arg3]
  congr 1
  funext a
  apply Fin.ext
  match a with
  | ⟨0, _⟩ => show win0_3.index t (0 : Fin 3) * 128 + 1 * q.val = oo.val; rw [ho, e0]; omega
  | ⟨1, _⟩ => show win0_3.index t (1 : Fin 3) * 8 + 1 * r.val = r.val; rw [e1]; omega
  | ⟨2, _⟩ => show win0_3.index t (2 : Fin 3) * 512 + 1 * d.val = d.val; rw [e2]; omega

theorem block4_apply (c : Dev nD) (t : Fin cfg0.N) (q : Fin 128) (r : Fin 8) (d : Fin 512) (oo : Fin 256)
    (ho : oo.val = win0_7.index t (1 : Fin 2) * 128 + q.val) :
    (iblk m c 4 t : Vec Ideal S128x8x512 .f32) (ix3 q r d) = ((m ((c.tc : Thread nD τ).loc main_arg4)) : S256x8x512.Idx → EReal) (ix3 oo r d) := by
  obtain ⟨-, -, -, -, -, -, -, -, -, e0, e1, e2, -⟩ := idx_facts t
  unfold iblk
  rw [View.read_apply]
  show V m c main_arg4 _ = _
  rw [V_main_arg4]
  congr 1
  funext a
  apply Fin.ext
  match a with
  | ⟨0, _⟩ => show win0_4.index t (0 : Fin 3) * 128 + 1 * q.val = oo.val; rw [ho, e0]; omega
  | ⟨1, _⟩ => show win0_4.index t (1 : Fin 3) * 8 + 1 * r.val = r.val; rw [e1]; omega
  | ⟨2, _⟩ => show win0_4.index t (2 : Fin 3) * 512 + 1 * d.val = d.val; rw [e2]; omega

theorem block5_apply (c : Dev nD) (t : Fin cfg0.N) (r : Fin 8) (d : Fin 512) :
    (iblk m c 5 t : Vec Ideal S8x512 .f32) (ix2 r d) = ((m ((c.tc : Thread nD τ).loc main_arg5)) : S8x512.Idx → EReal) (ix2 r d) := by
  obtain ⟨-, -, -, -, -, -, -, -, -, -, -, -, e0, e1, -⟩ := idx_facts t
  unfold iblk
  rw [View.read_apply]
  show V m c main_arg5 _ = _
  rw [V_main_arg5]
  congr 1
  funext a
  apply Fin.ext
  match a with
  | ⟨0, _⟩ => show win0_5.index t (0 : Fin 2) * 8 + 1 * r.val = r.val; rw [e0]; omega
  | ⟨1, _⟩ => show win0_5.index t (1 : Fin 2) * 512 + 1 * d.val = d.val; rw [e1]; omega

theorem block6_apply (c : Dev nD) (t : Fin cfg0.N) (r : Fin 8) (d : Fin 512) :
    (iblk m c 6 t : Vec Ideal S8x512 .f32) (ix2 r d) = ((m ((c.tc : Thread nD τ).loc main_arg6)) : S8x512.Idx → EReal) (ix2 r d) := by
  obtain ⟨-, -, -, -, -, -, -, -, -, -, -, -, -, -, e0, e1, -⟩ := idx_facts t
  unfold iblk
  rw [View.read_apply]
  show V m c main_arg6 _ = _
  rw [V_main_arg6]
  congr 1
  funext a
  apply Fin.ext
  match a with
  | ⟨0, _⟩ => show win0_6.index t (0 : Fin 2) * 8 + 1 * r.val = r.val; rw [e0]; omega
  | ⟨1, _⟩ => show win0_6.index t (1 : Fin 2) * 512 + 1 * d.val = d.val; rw [e1]; omega

/-- What point t leaves for sample p and unit q of its block is the score of the sample and the unit they are in the
    whole arrays. -/
theorem block_apply (c : Dev nD) (t : Fin cfg0.N) (p : Fin 8) (q : Fin 128) (bb : Fin 64) (oo : Fin 256)
    (hb : bb.val = win0_7.index t (0 : Fin 2) * 8 + p.val) (ho : oo.val = win0_7.index t (1 : Fin 2) * 128 + q.val) :
    out0_7 (iblk m c 0 t) (iblk m c 1 t) (iblk m c 2 t) (iblk m c 3 t) (iblk m c 4 t) (iblk m c 5 t) (iblk m c 6 t) (ix2 p q)
      = scoreAt ((m ((c.tc : Thread nD τ).loc main_arg0)) : S64x512.Idx → EReal) ((m ((c.tc : Thread nD τ).loc main_arg1)) : S512.Idx → EReal)
          ((m ((c.tc : Thread nD τ).loc main_arg2)) : S512.Idx → EReal) ((m ((c.tc : Thread nD τ).loc main_arg3)) : S256x8x512.Idx → EReal)
          ((m ((c.tc : Thread nD τ).loc main_arg4)) : S256x8x512.Idx → EReal) ((m ((c.tc : Thread nD τ).loc main_arg5)) : S8x512.Idx → EReal)
          ((m ((c.tc : Thread nD τ).loc main_arg6)) : S8x512.Idx → EReal) bb oo := by
  refine (Body.body_apply (iblk m c 0 t) (iblk m c 1 t) (iblk m c 2 t) (iblk m c 3 t) (iblk m c 4 t) (iblk m c 5 t)
    (iblk m c 6 t) p q).trans ?_
  unfold scoreAt
  rw [show (fun d => (iblk m c 0 t : Vec Ideal S8x512 .f32) (ix2 p d))
        = fun d => ((m ((c.tc : Thread nD τ).loc main_arg0)) : S64x512.Idx → EReal) (ix2 bb d) from funext fun d => block0_apply m c t p d bb hb,
    show (fun d => (iblk m c 1 t : Vec Ideal S1x512 .f32) (ix2 (0 : Fin 1) d))
        = fun d => ((m ((c.tc : Thread nD τ).loc main_arg1)) : S512.Idx → EReal) (ix1 d) from funext fun d => block1_apply m c t 0 d,
    show (fun d => (iblk m c 2 t : Vec Ideal S1x512 .f32) (ix2 (0 : Fin 1) d))
        = fun d => ((m ((c.tc : Thread nD τ).loc main_arg2)) : S512.Idx → EReal) (ix1 d) from funext fun d => block2_apply m c t 0 d,
    show (fun r d => (iblk m c 3 t : Vec Ideal S128x8x512 .f32) (ix3 q r d))
        = fun r d => ((m ((c.tc : Thread nD τ).loc main_arg3)) : S256x8x512.Idx → EReal) (ix3 oo r d)
        from funext fun r => funext fun d => block3_apply m c t q r d oo ho,
    show (fun r d => (iblk m c 4 t : Vec Ideal S128x8x512 .f32) (ix3 q r d))
        = fun r d => ((m ((c.tc : Thread nD τ).loc main_arg4)) : S256x8x512.Idx → EReal) (ix3 oo r d)
        from funext fun r => funext fun d => block4_apply m c t q r d oo ho,
    show (fun r d => (iblk m c 5 t : Vec Ideal S8x512 .f32) (ix2 r d))
        = fun r d => ((m ((c.tc : Thread nD τ).loc main_arg5)) : S8x512.Idx → EReal) (ix2 r d)
        from funext fun r => funext fun d => block5_apply m c t r d,
    show (fun r d => (iblk m c 6 t : Vec Ideal S8x512 .f32) (ix2 r d))
        = fun r d => ((m ((c.tc : Thread nD τ).loc main_arg6)) : S8x512.Idx → EReal) (ix2 r d)
        from funext fun r => funext fun d => block6_apply m c t r d]

/-! ## The array after the run -/

/-- What point t writes back is block t of the table of scores. -/
theorem flushed_eq (c : Dev nD) (t : Fin cfg0.N) :
    (dats m 0 c).flushed 7 t = ((cfg0.win 7).blk t).view.read (Elt Ideal) (table m c) := by
  show (cfg0.win 7).cut (grid0.coords t) ((dats m 0 c).after 7 t) = _
  rw [after0_7]
  refine funext fun (j : S8x128.Idx) => ?_
  obtain ⟨p, q, rfl⟩ : ∃ (p : Fin 8) (q : Fin 128), j = ix2 p q := ⟨j 0, j 1, eq_ix2 j⟩
  rw [View.read_apply]
  show out0_7 (iblk m c 0 t) (iblk m c 1 t) (iblk m c 2 t) (iblk m c 3 t) (iblk m c 4 t) (iblk m c 5 t) (iblk m c 6 t) (ix2 p q)
    = table m c (((cfg0.win 7).blk t).view.emb (ix2 p q))
  refine block_apply m c t p q _ _ ?_ ?_
  · show win0_7.index t (0 : Fin 2) * 8 + 1 * p.val = _; omega
  · show win0_7.index t (1 : Fin 2) * 128 + 1 * q.val = _; omega

/-- An index of the result is in point t's block iff each coordinate is in the block's range on its axis. -/
theorem mem_blk (t : Fin cfg0.N) (i : S64x256.Idx) :
    i ∈ ((cfg0.win 7).blk t).view.set ↔ ∀ a : Fin 2, win0_7.index t a * S8x128.size a ≤ (i a).val
      ∧ (i a).val < win0_7.index t a * S8x128.size a + S8x128.size a := by
  show i ∈ ((View.whole main_v2).slice (win0_7.rect t)).set ↔ _
  rw [View.set_slice_whole, Rect.mem_set_unit]
  exact Iff.rfl

/-- The 16 blocks cover the result: entry (b, o) is in the block of the point with block indices (b / 8, o / 128). -/
theorem cover (i : S64x256.Idx) : ∃ t : Fin cfg0.N, (cfg0.win 7).flush t = true ∧ i ∈ ((cfg0.win 7).blk t).view.set := by
  have hi0 : (i 0).val < 64 := (i 0).isLt
  have hi1 : (i 1).val < 256 := (i 1).isLt
  obtain ⟨t, ht⟩ := idx_onto ⟨(i 0).val / 8, by omega⟩ ⟨(i 1).val / 128, by omega⟩
  have q0 : win0_7.index t (0 : Fin 2) = (i 0).val / 8 := congrFun ht 0
  have q1 : win0_7.index t (1 : Fin 2) = (i 1).val / 128 := congrFun ht 1
  refine ⟨t, flush0_7 t, ?_⟩
  rw [mem_blk]
  intro a
  match a with
  | ⟨0, _⟩ =>
    show win0_7.index t (0 : Fin 2) * 8 ≤ (i 0).val ∧ (i 0).val < win0_7.index t (0 : Fin 2) * 8 + 8
    omega
  | ⟨1, _⟩ =>
    show win0_7.index t (1 : Fin 2) * 128 ≤ (i 1).val ∧ (i 1).val < win0_7.index t (1 : Fin 2) * 128 + 128
    omega

/-- The result of the call ends holding the table of scores. -/
theorem final (c : Dev nD) : (dats m 0 c).arrAt 7 cfg0.N = table m c :=
  (dats m 0 c).arrAt_eq_of_cover 7 (table m c) (fun t _ => flushed_eq m c t) (cover)

/-! ## The host's softmax after the call -/

theorem tail_eq (c : Dev nD) :
    Pipeline.afterTail₀ cfgs (dats m) 0 (V0 m) [hostOps1] c main_v13
      = softmaxRows (F := Ideal) reducesTo_S64x256_S64_d1 h_S_ bcast_S_S64 bcast_S64_S64x1_0 bcast_S64x1_S64x256_0_1 (table m c) := by
  unfold Pipeline.afterTail₀
  show StableHlo.after hostOps1 _ (Proc.devRef .tc main_v13) = _
  after_results
  exact congrArg (softmaxRows (F := Ideal) reducesTo_S64x256_S64_d1 h_S_ bcast_S_S64 bcast_S64_S64x1_0 bcast_S64x1_S64x256_0_1)
    ((Pipeline.withArrays_arr spec0 launch0.win.arr_inj c _ _ 7).trans (final m c))

/-- The run, read: the result at the row softmax of the table of scores, the arguments unchanged. -/
theorem run : θ_run defs (onTc (τ := τ) (main (F := Ideal))) ⟨m, fun _ => 0, ρ⟩ fun r => ∀ c : Dev nD,
      r.2.mem ((c.tc : Thread nD τ).loc main_v13)
        = softmaxRows (F := Ideal) reducesTo_S64x256_S64_d1 h_S_ bcast_S_S64 bcast_S64_S64x1_0 bcast_S64x1_S64x256_0_1 (table m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v13 (Pipeline.mem_restRefs_of main_v13 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.Blocks

end
-- ==== Proof.RefIndex.lean ====
/-
  The reference's index maps at coordinates: each broadcast or reduction of the reference reads its operand at an index
  computed from the result's index; at an index written by coordinates that index is again one written by coordinates.
-/
import proofs.«161766_j76888504533025_1_alg».proof.Proof.Gen.ReferenceIdeal.Read
import Idealize.ShloMosaic.Lib.ValueIdx

noncomputable section

namespace Cert.ReferenceIdeal.RefIndex

open Idealize.ShloMosaic Idealize.ShloMosaic.ValueIdx Cert.ReferenceIdeal Cert.ReferenceIdeal.Read

theorem at_v0 (c0 : Fin 64) (k : Fin 512) :
    idx_main_v0 (ix1 c0) k = ix2 c0 k := by
  funext a; match a with | ⟨0, _⟩ => rfl | ⟨1, _⟩ => rfl
theorem at_v1 (c0 : Fin 64) (c1 : Fin 1) :
    idx_main_v1 (ix2 c0 c1) = ix1 c0 := by
  funext a; match a with | ⟨0, _⟩ => rfl
theorem at_v4 (c0 : Fin 64) (c1 : Fin 512) :
    idx_main_v4 (ix2 c0 c1) = ix2 c0 (0 : Fin 1) := by
  funext a; match a with | ⟨0, _⟩ => rfl | ⟨1, _⟩ => rfl
theorem at_v7 (c0 : Fin 64) (k : Fin 512) :
    idx_main_v7 (ix1 c0) k = ix2 c0 k := by
  funext a; match a with | ⟨0, _⟩ => rfl | ⟨1, _⟩ => rfl
theorem at_v8 (c0 : Fin 64) (c1 : Fin 1) :
    idx_main_v8 (ix2 c0 c1) = ix1 c0 := by
  funext a; match a with | ⟨0, _⟩ => rfl
theorem at_v11 (c0 : Fin 64) (c1 : Fin 512) :
    idx_main_v11 (ix2 c0 c1) = ix2 c0 (0 : Fin 1) := by
  funext a; match a with | ⟨0, _⟩ => rfl | ⟨1, _⟩ => rfl
theorem at_v16 (c0 : Fin 64) (c1 : Fin 512) :
    idx_main_v16 (ix2 c0 c1) = ix2 c0 (0 : Fin 1) := by
  funext a; match a with | ⟨0, _⟩ => rfl | ⟨1, _⟩ => rfl
theorem at_v18 (c0 : Fin 1) (c1 : Fin 512) :
    idx_main_v18 (ix2 c0 c1) = ix1 c1 := by
  funext a; match a with | ⟨0, _⟩ => rfl
theorem at_v19 (c0 : Fin 64) (c1 : Fin 512) :
    idx_main_v19 (ix2 c0 c1) = ix2 (0 : Fin 1) c1 := by
  funext a; match a with | ⟨0, _⟩ => rfl | ⟨1, _⟩ => rfl
theorem at_v21 (c0 : Fin 1) (c1 : Fin 512) :
    idx_main_v21 (ix2 c0 c1) = ix1 c1 := by
  funext a; match a with | ⟨0, _⟩ => rfl
theorem at_v22 (c0 : Fin 64) (c1 : Fin 512) :
    idx_main_v22 (ix2 c0 c1) = ix2 (0 : Fin 1) c1 := by
  funext a; match a with | ⟨0, _⟩ => rfl | ⟨1, _⟩ => rfl
theorem at_v24 (c0 : Fin 1) (c1 : Fin 256) (c2 : Fin 8) (c3 : Fin 512) :
    idx_main_v24 (ix4 c0 c1 c2 c3) = ix3 c1 c2 c3 := by
  funext a; match a with | ⟨0, _⟩ => rfl | ⟨1, _⟩ => rfl | ⟨2, _⟩ => rfl
theorem at_v25 (c0 : Fin 64) (c1 : Fin 1) (c2 : Fin 1) (c3 : Fin 512) :
    idx_main_v25 (ix4 c0 c1 c2 c3) = ix2 c0 c3 := by
  funext a; match a with | ⟨0, _⟩ => rfl | ⟨1, _⟩ => rfl
theorem at_v26 (c0 : Fin 64) (c1 : Fin 256) (c2 : Fin 8) (c3 : Fin 512) :
    idx_main_v26 (ix4 c0 c1 c2 c3) = ix4 (0 : Fin 1) c1 c2 c3 := by
  funext a; match a with | ⟨0, _⟩ => rfl | ⟨1, _⟩ => rfl | ⟨2, _⟩ => rfl | ⟨3, _⟩ => rfl
theorem at_v27 (c0 : Fin 64) (c1 : Fin 256) (c2 : Fin 8) (c3 : Fin 512) :
    idx_main_v27 (ix4 c0 c1 c2 c3) = ix4 c0 (0 : Fin 1) (0 : Fin 1) c3 := by
  funext a; match a with | ⟨0, _⟩ => rfl | ⟨1, _⟩ => rfl | ⟨2, _⟩ => rfl | ⟨3, _⟩ => rfl
theorem at_v29 (c0 : Fin 1) (c1 : Fin 256) (c2 : Fin 8) (c3 : Fin 512) :
    idx_main_v29 (ix4 c0 c1 c2 c3) = ix3 c1 c2 c3 := by
  funext a; match a with | ⟨0, _⟩ => rfl | ⟨1, _⟩ => rfl | ⟨2, _⟩ => rfl
theorem at_v30 (c0 : Fin 64) (c1 : Fin 256) (c2 : Fin 8) (c3 : Fin 512) :
    idx_main_v30 (ix4 c0 c1 c2 c3) = ix4 (0 : Fin 1) c1 c2 c3 := by
  funext a; match a with | ⟨0, _⟩ => rfl | ⟨1, _⟩ => rfl | ⟨2, _⟩ => rfl | ⟨3, _⟩ => rfl
theorem at_v39 (c0 : Fin 64) (c1 : Fin 256) (c2 : Fin 1) (c3 : Fin 1) :
    idx_main_v39 (ix4 c0 c1 c2 c3) = ix2 c0 c1 := by
  funext a; match a with | ⟨0, _⟩ => rfl | ⟨1, _⟩ => rfl
theorem at_v42 (c0 : Fin 64) (c1 : Fin 256) (c2 : Fin 8) (c3 : Fin 512) :
    idx_main_v42 (ix4 c0 c1 c2 c3) = ix4 c0 c1 (0 : Fin 1) (0 : Fin 1) := by
  funext a; match a with | ⟨0, _⟩ => rfl | ⟨1, _⟩ => rfl | ⟨2, _⟩ => rfl | ⟨3, _⟩ => rfl
theorem at_v46 (c0 : Fin 64) (c1 : Fin 256) (c2 : Fin 1) (c3 : Fin 1) :
    idx_main_v46 (ix4 c0 c1 c2 c3) = ix2 c0 c1 := by
  funext a; match a with | ⟨0, _⟩ => rfl | ⟨1, _⟩ => rfl
theorem at_v49 (c0 : Fin 64) (c1 : Fin 256) (c2 : Fin 8) (c3 : Fin 512) :
    idx_main_v49 (ix4 c0 c1 c2 c3) = ix4 c0 c1 (0 : Fin 1) (0 : Fin 1) := by
  funext a; match a with | ⟨0, _⟩ => rfl | ⟨1, _⟩ => rfl | ⟨2, _⟩ => rfl | ⟨3, _⟩ => rfl
theorem at_v54 (c0 : Fin 64) (c1 : Fin 256) (c2 : Fin 8) (c3 : Fin 512) :
    idx_main_v54 (ix4 c0 c1 c2 c3) = ix4 c0 c1 (0 : Fin 1) (0 : Fin 1) := by
  funext a; match a with | ⟨0, _⟩ => rfl | ⟨1, _⟩ => rfl | ⟨2, _⟩ => rfl | ⟨3, _⟩ => rfl
theorem at_v56 (c0 : Fin 1) (c1 : Fin 1) (c2 : Fin 8) (c3 : Fin 512) :
    idx_main_v56 (ix4 c0 c1 c2 c3) = ix2 c2 c3 := by
  funext a; match a with | ⟨0, _⟩ => rfl | ⟨1, _⟩ => rfl
theorem at_v57 (c0 : Fin 64) (c1 : Fin 256) (c2 : Fin 8) (c3 : Fin 512) :
    idx_main_v57 (ix4 c0 c1 c2 c3) = ix4 (0 : Fin 1) (0 : Fin 1) c2 c3 := by
  funext a; match a with | ⟨0, _⟩ => rfl | ⟨1, _⟩ => rfl | ⟨2, _⟩ => rfl | ⟨3, _⟩ => rfl
theorem at_v59 (c0 : Fin 1) (c1 : Fin 1) (c2 : Fin 8) (c3 : Fin 512) :
    idx_main_v59 (ix4 c0 c1 c2 c3) = ix2 c2 c3 := by
  funext a; match a with | ⟨0, _⟩ => rfl | ⟨1, _⟩ => rfl
theorem at_v60 (c0 : Fin 64) (c1 : Fin 256) (c2 : Fin 8) (c3 : Fin 512) :
    idx_main_v60 (ix4 c0 c1 c2 c3) = ix4 (0 : Fin 1) (0 : Fin 1) c2 c3 := by
  funext a; match a with | ⟨0, _⟩ => rfl | ⟨1, _⟩ => rfl | ⟨2, _⟩ => rfl | ⟨3, _⟩ => rfl
theorem at_v62 (c0 : Fin 64) (c1 : Fin 256) (c2 : Fin 8) (k : Fin 512) :
    idx_main_v62 (ix3 c0 c1 c2) k = ix4 c0 c1 c2 k := by
  funext a; match a with | ⟨0, _⟩ => rfl | ⟨1, _⟩ => rfl | ⟨2, _⟩ => rfl | ⟨3, _⟩ => rfl
theorem at_v69 (c0 : Fin 64) (c1 : Fin 256) (k : Fin 8) :
    idx_main_v69 (ix2 c0 c1) k = ix3 c0 c1 k := by
  funext a; match a with | ⟨0, _⟩ => rfl | ⟨1, _⟩ => rfl | ⟨2, _⟩ => rfl
theorem at_v73 (c0 : Fin 64) (c1 : Fin 1) :
    idx_main_v73 (ix2 c0 c1) = ix1 c0 := by
  funext a; match a with | ⟨0, _⟩ => rfl
theorem at_v74 (c0 : Fin 64) (c1 : Fin 256) :
    idx_main_v74 (ix2 c0 c1) = ix2 c0 (0 : Fin 1) := by
  funext a; match a with | ⟨0, _⟩ => rfl | ⟨1, _⟩ => rfl
theorem at_v77 (c0 : Fin 64) (k : Fin 256) :
    idx_main_v77 (ix1 c0) k = ix2 c0 k := by
  funext a; match a with | ⟨0, _⟩ => rfl | ⟨1, _⟩ => rfl
theorem at_v78 (c0 : Fin 64) (c1 : Fin 1) :
    idx_main_v78 (ix2 c0 c1) = ix1 c0 := by
  funext a; match a with | ⟨0, _⟩ => rfl
theorem at_v79 (c0 : Fin 64) (c1 : Fin 256) :
    idx_main_v79 (ix2 c0 c1) = ix2 c0 (0 : Fin 1) := by
  funext a; match a with | ⟨0, _⟩ => rfl | ⟨1, _⟩ => rfl

end Cert.ReferenceIdeal.RefIndex

end
-- ==== Proof.RefScore.lean ====
/-
  The reference's score read at coordinates: for sample b and output unit o, the number the reference holds before its
  softmax is the two-pass score (`Synapse.scoreR`) of unit o's synapse table on sample b's normalised row.

  The reference normalises the rows (`norm_apply`), spreads the rows and the tables over [64, 256, 8, 512] and applies the
  logistic, spelled as 1 / (1 + exp (-x)) (`syn_apply`), sums each (sample, unit) table over its last two axes at once
  (`table_total`, read by hand: a sum over the pairs (m, d)), and finishes as the text says (`score_apply`).
-/
import proofs.«161766_j76888504533025_1_alg».proof.Proof.Gen.ReferenceIdeal.Read
import proofs.«161766_j76888504533025_1_alg».proof.Proof.RefIndex
import proofs.«161766_j76888504533025_1_alg».proof.Proof.Score
import proofs.«161766_j76888504533025_1_alg».proof.Proof.Consts
import Idealize.ShloMosaic.PureOps.Ideal.Laws
import Idealize.ShloMosaic.Lib.ValueIdx

noncomputable section

namespace Cert.ReferenceIdeal.RefScore

open Idealize.ShloMosaic Idealize.ShloMosaic.ValueIdx Cert.ReferenceIdeal Cert.ReferenceIdeal.Read Cert.ReferenceIdeal.RefIndex
  Synapse Cert.Consts

/-- The host's sum of a [64, 256, 8, 512] array over its last two axes, at (b, o): the initial value plus the sum over
    the pairs (m, d) of the entries (b, o, m, d). -/
theorem table_total (h' : S64x256x8x512.ReducesTo [2, 3] S64x256) (x : S64x256x8x512.Idx → EReal) (init : EReal)
    (b : Fin 64) (o : Fin 256) :
    Ideal.hostReduceAdd h' x init (ix2 b o) = init + ∑ m : Fin 8, ∑ d : Fin 512, x (ix4 b o m d) := by
  unfold Ideal.hostReduceAdd
  refine congrArg (init + ·) ?_
  rw [Synapse.sum_pairs (fun m d => x (ix4 b o m d))]
  symm
  refine Finset.sum_bij (fun md _ => ix4 b o md.1 md.2) ?_ ?_ ?_ (fun _ _ => rfl)
  · intro md _
    refine Finset.mem_filter.mpr ⟨Finset.mem_univ _, funext fun a => Fin.ext ?_⟩
    match a with
    | ⟨0, _⟩ => exact h'.drop_apply_val_of_eq (ix4 b o md.1 md.2) ⟨0, by decide⟩ (0 : Fin 4)
    | ⟨1, _⟩ => exact h'.drop_apply_val_of_eq (ix4 b o md.1 md.2) ⟨1, by decide⟩ (1 : Fin 4)
  · intro md₁ _ md₂ _ h
    exact Prod.ext (congrFun h (2 : Fin 4)) (congrFun h (3 : Fin 4))
  · intro i hi
    have hi' := (Finset.mem_filter.mp hi).2
    refine ⟨(i 2, i 3), Finset.mem_univ _, funext fun a => Fin.ext ?_⟩
    match a with
    | ⟨0, _⟩ =>
      exact (congrArg Fin.val (congrFun hi' ⟨0, by decide⟩)).symm.trans
        (h'.drop_apply_val_of_eq i ⟨0, by decide⟩ (0 : Fin 4))
    | ⟨1, _⟩ =>
      exact (congrArg Fin.val (congrFun hi' ⟨1, by decide⟩)).symm.trans
        (h'.drop_apply_val_of_eq i ⟨1, by decide⟩ (1 : Fin 4))
    | ⟨2, _⟩ => rfl
    | ⟨3, _⟩ => rfl

/-- The rows normalised. -/
theorem norm_apply (X : (⟨S64x512, .f32⟩ : BufTy).Contents (Elt Ideal)) (W1 B1 : (⟨S512, .f32⟩ : BufTy).Contents (Elt Ideal)) (b : Fin 64) (d : Fin 512) :
    val_main_v23 (F := Ideal) X W1 B1 (ix2 b d)
      = rowNorm C512 EPS (fun d => X (ix2 b d)) (fun d => W1 (ix1 d)) (fun d => B1 (ix1 d)) d := by
  unfold rowNorm rowVar rowMean
  simp only [val_main_v23_apply, val_main_v20_apply, val_main_v17_apply, val_main_v12_apply, val_main_v16_apply, val_main_v15_apply, val_main_v14_apply, val_main_v13_apply, val_main_v10_apply, val_main_v9_apply, val_main_v8_apply, val_main_v7_apply, val_main_v6_apply, val_main_v5_apply, val_main_v4_apply, val_main_v3_apply, val_main_v2_apply, val_main_v1_apply, val_main_v0_apply, val_main_v11_apply, val_main_v19_apply, val_main_v18_apply, val_main_v22_apply, val_main_v21_apply,
    val_main_cst_apply, val_main_cst_0_apply, val_main_cst_1_apply, val_main_cst_2_apply, val_main_cst_3_apply, at_v0, at_v1, at_v4, at_v7, at_v8, at_v11, at_v16, at_v18, at_v19, at_v21, at_v22,
    Ideal.addf_def, Ideal.mulf_def, Ideal.subf_def, Ideal.hostDivf_def, Ideal.hostUnary_rsqrt_def, Ideal.ofBits_def,
    Consts.ofBits_zero, zero_add]

/-- The synapse tables on the normalised rows. -/
theorem syn_apply (X : (⟨S64x512, .f32⟩ : BufTy).Contents (Elt Ideal)) (W1 B1 : (⟨S512, .f32⟩ : BufTy).Contents (Elt Ideal)) (SW SB : (⟨S256x8x512, .f32⟩ : BufTy).Contents (Elt Ideal)) (b : Fin 64) (o : Fin 256) (m : Fin 8) (d : Fin 512) :
    val_main_v37 (F := Ideal) X W1 B1 SW SB (ix4 b o m d)
      = syn (fun d => val_main_v23 (F := Ideal) X W1 B1 (ix2 b d)) (fun m d => SW (ix3 o m d)) (fun m d => SB (ix3 o m d)) m d := by
  unfold syn Ideal.logistic
  simp only [val_main_v37_apply, val_main_v36_apply, val_main_v35_apply, val_main_v34_apply, val_main_v33_apply, val_main_v32_apply, val_main_v31_apply, val_main_v28_apply, val_main_v30_apply, val_main_v29_apply, val_main_v26_apply, val_main_v24_apply, val_main_v27_apply, val_main_v25_apply, val_main_cst_4_apply, val_main_cst_5_apply,
    at_v24, at_v25, at_v26, at_v27, at_v29, at_v30,
    Ideal.addf_def, Ideal.mulf_def, Ideal.hostDivf_def, Ideal.hostUnary_exp_def, Ideal.hostNegf_def, Ideal.negf_def,
    Ideal.ofBits_def, Consts.ofBits_one]

/-- The sum of a (sample, unit) table. -/
theorem total_apply (X : (⟨S64x512, .f32⟩ : BufTy).Contents (Elt Ideal)) (W1 B1 : (⟨S512, .f32⟩ : BufTy).Contents (Elt Ideal)) (SW SB : (⟨S256x8x512, .f32⟩ : BufTy).Contents (Elt Ideal)) (b : Fin 64) (o : Fin 256) :
    val_main_v38 (F := Ideal) X W1 B1 SW SB (ix2 b o) = ∑ m : Fin 8, ∑ d : Fin 512, val_main_v37 (F := Ideal) X W1 B1 SW SB (ix4 b o m d) := by
  unfold val_main_v38
  generalize val_main_v37 (F := Ideal) X W1 B1 SW SB = y
  simp only [Host.reduceAdd, Ideal.hostReduceAdd_def]
  rw [table_total]
  simp only [val_main_cst_6_apply, Ideal.ofBits_def, Consts.ofBits_zero, zero_add]

/-- The sum of a (sample, unit) table's squared deviations. -/
theorem squares_apply (X : (⟨S64x512, .f32⟩ : BufTy).Contents (Elt Ideal)) (W1 B1 : (⟨S512, .f32⟩ : BufTy).Contents (Elt Ideal)) (SW SB : (⟨S256x8x512, .f32⟩ : BufTy).Contents (Elt Ideal)) (b : Fin 64) (o : Fin 256) :
    val_main_v45 (F := Ideal) X W1 B1 SW SB (ix2 b o) = ∑ m : Fin 8, ∑ d : Fin 512, val_main_v44 (F := Ideal) X W1 B1 SW SB (ix4 b o m d) := by
  unfold val_main_v45
  generalize val_main_v44 (F := Ideal) X W1 B1 SW SB = y
  simp only [Host.reduceAdd, Ideal.hostReduceAdd_def]
  rw [table_total]
  simp only [val_main_cst_8_apply, Ideal.ofBits_def, Consts.ofBits_zero, zero_add]

/-- The score from the synapse tables. -/
theorem score_apply (X : (⟨S64x512, .f32⟩ : BufTy).Contents (Elt Ideal)) (W1 B1 : (⟨S512, .f32⟩ : BufTy).Contents (Elt Ideal)) (SW SB : (⟨S256x8x512, .f32⟩ : BufTy).Contents (Elt Ideal)) (DW DB : (⟨S8x512, .f32⟩ : BufTy).Contents (Elt Ideal)) (b : Fin 64) (o : Fin 256) :
    val_main_v69 (F := Ideal) X W1 B1 SW SB DW DB (ix2 b o)
      = scoreR C4096 EPS (fun m d => val_main_v37 (F := Ideal) X W1 B1 SW SB (ix4 b o m d)) (fun m d => DW (ix2 m d))
          (fun m d => DB (ix2 m d)) := by
  unfold scoreR varTwo tabMean Ideal.logistic
  simp only [val_main_v69_apply, val_main_v68_apply, val_main_v67_apply, val_main_v66_apply, val_main_v65_apply, val_main_v64_apply, val_main_v63_apply, val_main_v62_apply, val_main_v61_apply, val_main_v58_apply, val_main_v60_apply, val_main_v59_apply, val_main_v57_apply, val_main_v56_apply, val_main_v55_apply, val_main_v50_apply, val_main_v49_apply, val_main_v54_apply, val_main_v53_apply, val_main_v52_apply, val_main_v51_apply, val_main_v48_apply, val_main_v47_apply, val_main_v46_apply, val_main_v44_apply, val_main_v43_apply, val_main_v42_apply, val_main_v41_apply, val_main_v40_apply, val_main_v39_apply,
    val_main_cst_7_apply, val_main_cst_9_apply, val_main_cst_10_apply, val_main_cst_11_apply, val_main_cst_12_apply, val_main_cst_13_apply, val_main_cst_14_apply, total_apply, squares_apply,
    at_v39, at_v42, at_v46, at_v49, at_v54, at_v56, at_v57, at_v59, at_v60, at_v62, at_v69,
    Ideal.addf_def, Ideal.mulf_def, Ideal.subf_def, Ideal.hostDivf_def, Ideal.hostUnary_exp_def, Ideal.hostUnary_rsqrt_def,
    Ideal.hostNegf_def, Ideal.negf_def, Ideal.ofBits_def, Consts.ofBits_zero, Consts.ofBits_one, zero_add]

/-- The reference's score, from the argument arrays. -/
theorem score_eq (X : (⟨S64x512, .f32⟩ : BufTy).Contents (Elt Ideal)) (W1 B1 : (⟨S512, .f32⟩ : BufTy).Contents (Elt Ideal)) (SW SB : (⟨S256x8x512, .f32⟩ : BufTy).Contents (Elt Ideal)) (DW DB : (⟨S8x512, .f32⟩ : BufTy).Contents (Elt Ideal)) (b : Fin 64) (o : Fin 256) :
    val_main_v69 (F := Ideal) X W1 B1 SW SB DW DB (ix2 b o)
      = scoreR C4096 EPS
          (syn (rowNorm C512 EPS (fun d => X (ix2 b d)) (fun d => W1 (ix1 d)) (fun d => B1 (ix1 d)))
            (fun m d => SW (ix3 o m d)) (fun m d => SB (ix3 o m d)))
          (fun m d => DW (ix2 m d)) (fun m d => DB (ix2 m d)) := by
  rw [score_apply]
  simp only [syn_apply, norm_apply]

end Cert.ReferenceIdeal.RefScore

end
-- ==== Proof.RefTable.lean ====
/-
  The reference's result as the row softmax of its table of scores, and that table, for arrays of real entries, as the
  table of one-pass scores the kernel's result is the softmax of.
-/
import proofs.«161766_j76888504533025_1_alg».proof.Proof.RefScore
import proofs.«161766_j76888504533025_1_alg».proof.Proof.Table

noncomputable section

namespace Cert.ReferenceIdeal.RefTable

open Idealize.ShloMosaic Idealize.ShloMosaic.ValueIdx Cert.ReferenceIdeal Cert.ReferenceIdeal.Read Cert.ReferenceIdeal.Facts₀
  Synapse Cert.Consts

/-- The last lines of the reference are the row softmax of the score table. -/
theorem result_eq (X : (⟨S64x512, .f32⟩ : BufTy).Contents (Elt Ideal)) (W1 B1 : (⟨S512, .f32⟩ : BufTy).Contents (Elt Ideal))
    (SW SB : (⟨S256x8x512, .f32⟩ : BufTy).Contents (Elt Ideal)) (DW DB : (⟨S8x512, .f32⟩ : BufTy).Contents (Elt Ideal)) :
    (val_main_v80 (F := Ideal) X W1 B1 SW SB DW DB : FVec Ideal T64x256 .f32)
      = softmaxRows (F := Ideal) reducesTo_S64x256_S64_d1 h_S_ bcast_S_S64 bcast_S64_S64x1_0 bcast_S64x1_S64x256_0_1
          (val_main_v69 (F := Ideal) X W1 B1 SW SB DW DB) := rfl

/-- For arrays of real entries the reference's score table is the table of one-pass scores. -/
theorem scores_eq (X : (⟨S64x512, .f32⟩ : BufTy).Contents (Elt Ideal)) (W1 B1 : (⟨S512, .f32⟩ : BufTy).Contents (Elt Ideal))
    (SW SB : (⟨S256x8x512, .f32⟩ : BufTy).Contents (Elt Ideal)) (DW DB : (⟨S8x512, .f32⟩ : BufTy).Contents (Elt Ideal))
    (hX : ∀ i, ∃ r : ℝ, X i = (r : EReal)) (hW1 : ∀ i, ∃ r : ℝ, W1 i = (r : EReal)) (hB1 : ∀ i, ∃ r : ℝ, B1 i = (r : EReal))
    (hSW : ∀ i, ∃ r : ℝ, SW i = (r : EReal)) (hSB : ∀ i, ∃ r : ℝ, SB i = (r : EReal))
    (hDW : ∀ i, ∃ r : ℝ, DW i = (r : EReal)) (hDB : ∀ i, ∃ r : ℝ, DB i = (r : EReal)) :
    val_main_v69 (F := Ideal) X W1 B1 SW SB DW DB = scores X W1 B1 SW SB DW DB := by
  funext j
  obtain ⟨b, o, rfl⟩ : ∃ (b : Fin 64) (o : Fin 256), j = ix2 b o := ⟨j 0, j 1, eq_ix2 j⟩
  rw [RefScore.score_eq, scores_apply, scoreAt_two_pass X W1 B1 SW SB DW DB hX hW1 hB1 hSW hSB hDW hDB]

end Cert.ReferenceIdeal.RefTable

end
-- ==== Proof.Finite.lean ====
/-
  The precondition read back: an input array every entry of which has absolute value below +inf holds real numbers.

  The predicate is the conjunction, over the seven arrays, of "all entries satisfy |x| < +inf" (a reduction by `and` of the
  entrywise comparison against the pattern of +inf). On the extended reals |x| = max x (-x) is +inf exactly at the two
  infinities, so each conjunct says every entry is a real.
-/
import proofs.«161766_j76888504533025_1_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Idealize.ShloMosaic Cert.Pre_finite_inputs

instance : Subsingleton (S_).Idx := ⟨fun _ _ => funext fun d => d.elim0⟩

/-- The pattern of +inf denotes the top of the extended reals. -/
theorem ofBits_inf : Ideal.ofBits .f32 0x7F800000#32 = ⊤ := by
  simp [Ideal.ofBits, Ideal.ieee]

/-- An extended real whose absolute value is below +inf is a real. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- Under the precondition every entry of every input array is a real. -/
theorem reals_of_pre [Facts] (X : FVec Ideal S64x512 .f32) (W1 B1 : FVec Ideal S512 .f32) (SW SB : FVec Ideal S256x8x512 .f32)
    (DW DB : FVec Ideal S8x512 .f32) (h : fn (F := Ideal) X W1 B1 SW SB DW DB = fun _ => 1#1) :
    (∀ i, ∃ r : ℝ, X i = (r : EReal)) ∧ (∀ i, ∃ r : ℝ, W1 i = (r : EReal)) ∧ (∀ i, ∃ r : ℝ, B1 i = (r : EReal))
      ∧ (∀ i, ∃ r : ℝ, SW i = (r : EReal)) ∧ (∀ i, ∃ r : ℝ, SB i = (r : EReal))
      ∧ (∀ i, ∃ r : ℝ, DW i = (r : EReal)) ∧ (∀ i, ∃ r : ℝ, DB i = (r : EReal)) := by
  have h0 := congrFun h ValueIdx.ix0
  dsimp only [fn, fn_part1] at h0
  obtain ⟨h5, h6⟩ := IntOp.andi_eq_one.1 h0
  obtain ⟨h4', h5'⟩ := IntOp.andi_eq_one.1 h5
  obtain ⟨h3', h4''⟩ := IntOp.andi_eq_one.1 h4'
  obtain ⟨h2', h3''⟩ := IntOp.andi_eq_one.1 h3'
  obtain ⟨h1', h2''⟩ := IntOp.andi_eq_one.1 h2'
  obtain ⟨h0', h1''⟩ := IntOp.andi_eq_one.1 h1'
  exact ⟨fun i => real_of_abs_lt (X i) (Host.reduce_andi_all _ _ _ _ _ h0' i),
    fun i => real_of_abs_lt (W1 i) (Host.reduce_andi_all _ _ _ _ _ h1'' i),
    fun i => real_of_abs_lt (B1 i) (Host.reduce_andi_all _ _ _ _ _ h2'' i),
    fun i => real_of_abs_lt (SW i) (Host.reduce_andi_all _ _ _ _ _ h3'' i),
    fun i => real_of_abs_lt (SB i) (Host.reduce_andi_all _ _ _ _ _ h4'' i),
    fun i => real_of_abs_lt (DW i) (Host.reduce_andi_all _ _ _ _ _ h5' i),
    fun i => real_of_abs_lt (DB i) (Host.reduce_andi_all _ _ _ _ _ h6 i)⟩

end Cert.Pre_finite_inputs.Finite

end
-- ==== Proof.lean ====
/-
  A layer of "dendritic" units on 64 samples: each sample's row of 512 entries is layer-normalised; each of 256 output
  units has an 8 by 512 table of synapses (weights sw, shifts sb) that sends the normalised row through a logistic entry by
  entry; the unit's table of values is layer-normalised over all its 4096 entries with weights dn_w, dn_b, summed along the
  512 lanes, sent through a logistic and summed along the 8 rows; the 256 scores of a sample go through a softmax.

  The kernel computes a sample-unit score in ONE pass over the table, 128 lanes at a time: it accumulates the sum of the
  values, the sum of their squares and, per row, the sum weighted by dn_w, takes the variance as the mean of the squares
  minus the square of the mean, and applies the normalisation after the sum over the lanes,
      sum_d ((z - mu) * r * dn_w + dn_b) = r * (sum_d z * dn_w - mu * sum_d dn_w) + sum_d dn_b.
  The reference normalises every entry first, with the two-pass variance. On the extended reals the two agree when every
  input entry is a real (`Synapse.score_forms`, through `Synapse.scoreAt_two_pass`): the logistic of a real is a real in
  (0, 1), so the table's variance is a nonnegative real and the inverse square root of it plus the positive stabiliser is
  a real; the precondition says exactly that every input entry is a real (`Finite.reals_of_pre`). Both programs then apply
  the same row softmax to the same table of scores.

  The kernel's side: what the body stores at a block's (sample, unit) is the one-pass score (`Body.body_apply`), the 16
  blocks are the blocks of one table and cover the result (`Blocks.final`), the host lines after the call are the softmax
  (`Blocks.tail_eq`, `Blocks.run`). The reference's side: its score table read at coordinates (`RefScore.score_eq`) and
  its last lines the softmax (`RefTable.result_eq`). The idealization rewrote nothing, so `preserves` is trivial; the three
  frames are the generated runs.
-/
import proofs.«161766_j76888504533025_1_alg».proof.Defs
import proofs.«161766_j76888504533025_1_alg».proof.Proof.Gen.Kernel
import proofs.«161766_j76888504533025_1_alg».proof.Proof.Gen.Kernel.Skeleton
import proofs.«161766_j76888504533025_1_alg».proof.Proof.Gen.Kernel.Launch
import proofs.«161766_j76888504533025_1_alg».proof.Proof.Gen.Kernel.Points
import proofs.«161766_j76888504533025_1_alg».proof.Proof.Gen.Kernel.Frame
import proofs.«161766_j76888504533025_1_alg».proof.Proof.Gen.KernelIdeal
import proofs.«161766_j76888504533025_1_alg».proof.Proof.Gen.KernelIdeal.Skeleton
import proofs.«161766_j76888504533025_1_alg».proof.Proof.Gen.KernelIdeal.Launch
import proofs.«161766_j76888504533025_1_alg».proof.Proof.Gen.KernelIdeal.Points
import proofs.«161766_j76888504533025_1_alg».proof.Proof.Gen.KernelIdeal.Frame
import proofs.«161766_j76888504533025_1_alg».proof.Proof.Gen.ReferenceIdeal
import proofs.«161766_j76888504533025_1_alg».proof.Proof.Gen.ReferenceIdeal.Run
import proofs.«161766_j76888504533025_1_alg».proof.Proof.Gen.ReferenceIdeal.Read
import proofs.«161766_j76888504533025_1_alg».proof.Proof.Gen.Pre_finite_inputs
import proofs.«161766_j76888504533025_1_alg».proof.Proof.Blocks
import proofs.«161766_j76888504533025_1_alg».proof.Proof.RefTable
import proofs.«161766_j76888504533025_1_alg».proof.Proof.Finite
import Idealize.ShloMosaic.Adequacy
import Idealize.ShloMosaic.Init

noncomputable section

namespace Cert.Proof

open Idealize.ShloMosaic Idealize.ShloMosaic.TcCoe Idealize.SL.Sem Synapse

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arrays, all of real entries, the kernel ends at the row softmax of the table of
    one-pass scores and the reference at the row softmax of its table of two-pass scores, which is the same table. -/
theorem algebraic : Cert.algebraic_KernelIdeal_ReferenceIdeal := by
  intro m ρ m' ρ' hpre hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨hX, hW1, hB1, hSW, hSB, hDW, hDB⟩ := Cert.Pre_finite_inputs.Finite.reals_of_pre _ _ _ _ _ _ _ (hpre c)
  rw [Cert.ReferenceIdeal.Read.val_main_v80_eq, a0, a1, a2, a3, a4, a5, a6, Cert.ReferenceIdeal.RefTable.result_eq,
    Cert.ReferenceIdeal.RefTable.scores_eq _ _ _ _ _ _ _ hX hW1 hB1 hSW hSB hDW hDB]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
